-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S256x128 .f32) (main_arg3 : FVec F S128 .f32) (main_arg4 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000x128 : Shape := ⟨2, ![100000, 128]⟩
abbrev S4000x256 : Shape := ⟨2, ![4000, 256]⟩
abbrev S4000x128 : Shape := ⟨2, ![4000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 79
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S100000x128, .bf16⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .bf16⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .i1⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .bf16⟩
  | .local _ .vmem, ⟨4, _⟩ => ⟨S4000x128, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S4000x256_S256x128_S4000x128_1_0_0_1_n_n_wf : DotDims.WF S4000x256 S256x128 S4000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S100000x128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .i1⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelAround.lean ====
/-
  The frame run of `Kernel`, at any float instance `F`: @main is one pipelined region — twenty-five grid points,
  each computing a 4000-row block of the product `x · W` on the matrix unit — followed by seventy-three host
  operations in four stretches (the degree count, the normalisation, the gather / scatter aggregation, the bias and
  the per-channel slope). The region's proof data name what each point leaves in the output window's staging buffer
  (the body's one store over the two loaded blocks); the host operations after the region write fresh buffers only,
  so every argument array ends as launched, and the result buffer ends at the operations' composed term of the
  product array and the arguments (`Pipeline.afterTail₀`).
-/
import proofs.«133080_j10007273799959_2_alg».proof.Proof.Gen.Kernel.Launch
import proofs.«133080_j10007273799959_2_alg».proof.Proof.Gen.Kernel.Skeleton
import proofs.«133080_j10007273799959_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host operations -/

/-- The host operations after the region, stretch by stretch. -/
abbrev tail : List (List (HloOp τ sig (Elt F))) := [hostOps1, hostOps1_1, hostOps1_2, hostOps1_3]

/-- The buffers as the region finds them: no host operation comes before it, so they are the launch contents. -/
abbrev V0 (c : Dev nD) : Valuation τ sig (Elt F) :=
  StableHlo.after (List.flatten ([] : List (List (HloOp τ sig (Elt F))))) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 8000000 in
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

set_option maxHeartbeats 8000000 in
/-- @main reduces to the region continued by the four stretches of host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [] [hostOps1, hostOps1_1, hostOps1_2, hostOps1_3] trivial trivial
    (fun c => (main_chain c).trans (by simp only [List.map_nil, List.map_cons, List.nil_append, List.cons_append]))

/-- The later operations touch the pipeline's arrays and the buffers that bypass the region only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- They allocate nothing. -/
theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- The buffers no later operation writes: the five arguments and the product. -/
def Kept (b : Ref sig .tc) : Prop :=
  b = main_arg0 ∨ b = main_arg1 ∨ b = main_arg2 ∨ b = main_arg3 ∨ b = main_arg4 ∨ b = main_v0

theorem ne_of_kept {b y : Ref sig .tc} (hb : Kept b) (h0 : main_arg0 ≠ y) (h1 : main_arg1 ≠ y) (h2 : main_arg2 ≠ y)
    (h3 : main_arg3 ≠ y) (h4 : main_arg4 ≠ y) (h5 : main_v0 ≠ y) :
    Proc.devRef (τ := τ) .tc b ≠ Proc.devRef .tc y := by
  rcases hb with rfl | rfl | rfl | rfl | rfl | rfl
  · exact StableHlo.devRef_ne_of_ne h0
  · exact StableHlo.devRef_ne_of_ne h1
  · exact StableHlo.devRef_ne_of_ne h2
  · exact StableHlo.devRef_ne_of_ne h3
  · exact StableHlo.devRef_ne_of_ne h4
  · exact StableHlo.devRef_ne_of_ne h5

theorem keeps1 : (hostOps1 : List (HloOp τ sig (Elt F))).Forall fun op =>
    ∀ b, Kept b → Proc.devRef .tc b ∉ op.writes := by
  simp only [hostOps1, List.Forall, StableHlo.nullary_writes, StableHlo.unary_writes, StableHlo.binary_writes,
    StableHlo.ternary_writes, StableHlo.reshape_writes, Finset.mem_singleton]
  repeat' apply And.intro
  all_goals exact fun b hb => ne_of_kept hb (by decide) (by decide) (by decide) (by decide) (by decide) (by decide)
theorem keeps1_1 : (hostOps1_1 : List (HloOp τ sig (Elt F))).Forall fun op =>
    ∀ b, Kept b → Proc.devRef .tc b ∉ op.writes := by
  simp only [hostOps1_1, List.Forall, StableHlo.nullary_writes, StableHlo.unary_writes, StableHlo.binary_writes,
    StableHlo.ternary_writes, StableHlo.reshape_writes, Finset.mem_singleton]
  repeat' apply And.intro
  all_goals exact fun b hb => ne_of_kept hb (by decide) (by decide) (by decide) (by decide) (by decide) (by decide)
set_option maxHeartbeats 8000000 in
theorem keeps1_2 : (hostOps1_2 : List (HloOp τ sig (Elt F))).Forall fun op =>
    ∀ b, Kept b → Proc.devRef .tc b ∉ op.writes := by
  simp only [hostOps1_2, List.Forall, StableHlo.nullary_writes, StableHlo.unary_writes, StableHlo.binary_writes,
    StableHlo.ternary_writes, StableHlo.reshape_writes, Finset.mem_singleton]
  repeat' apply And.intro
  all_goals exact fun b hb => ne_of_kept hb (by decide) (by decide) (by decide) (by decide) (by decide) (by decide)
theorem keeps1_3 : (hostOps1_3 : List (HloOp τ sig (Elt F))).Forall fun op =>
    ∀ b, Kept b → Proc.devRef .tc b ∉ op.writes := by
  simp only [hostOps1_3, List.Forall, StableHlo.nullary_writes, StableHlo.unary_writes, StableHlo.binary_writes,
    StableHlo.ternary_writes, StableHlo.reshape_writes, Finset.mem_singleton]
  exact fun b hb => ne_of_kept hb (by decide) (by decide) (by decide) (by decide) (by decide) (by decide)

/-- No later operation writes a kept buffer. -/
theorem tail_not_writes {b : Ref sig .tc} (hb : Kept b) :
    ∀ op ∈ (tail : List (List (HloOp τ sig (Elt F)))).flatten, Proc.devRef .tc b ∉ op.writes := by
  intro op hop
  simp only [List.flatten_cons, List.flatten_nil, List.append_nil, List.mem_append] at hop
  rcases hop with hop | hop | hop | hop
  · exact (List.forall_iff_forall_mem.mp keeps1) op hop b hb
  · exact (List.forall_iff_forall_mem.mp keeps1_1) op hop b hb
  · exact (List.forall_iff_forall_mem.mp keeps1_2) op hop b hb
  · exact (List.forall_iff_forall_mem.mp keeps1_3) op hop b hb

/-- So a kept buffer holds after the later operations what it held before them. -/
theorem after_tail_kept {b : Ref sig .tc} (hb : Kept b) (W : Valuation τ sig (Elt F)) :
    StableHlo.after (tail : List (List (HloOp τ sig (Elt F)))).flatten W (Proc.devRef .tc b) = W (Proc.devRef .tc b) :=
  StableHlo.after_of_forall_not_mem _ W (tail_not_writes hb)

theorem kept_arr (w : Fin 3) : Kept (Pipeline.arrRef spec0 w) := by
  fin_cases w
  · exact .inl rfl
  · exact .inr (.inr (.inl rfl))
  · exact .inr (.inr (.inr (.inr (.inr rfl))))

/-- The later operations write no array of the pipeline: each writes its own result buffer. -/
theorem sfx_keeps : ∀ ops ∈ (tail : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl | rfl
  · exact (List.forall_iff_forall_mem.mp keeps1) op hop _ (kept_arr w)
  · exact (List.forall_iff_forall_mem.mp keeps1_1) op hop _ (kept_arr w)
  · exact (List.forall_iff_forall_mem.mp keeps1_2) op hop _ (kept_arr w)
  · exact (List.forall_iff_forall_mem.mp keeps1_3) op hop _ (kept_arr w)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S4000x256 := Rect.unit (s := S4000x256) ![0, 0] S4000x256.size inb_S4000x256_S4000x256_0_0
abbrev r0_1 : Rect S256x128 := Rect.unit (s := S256x128) ![0, 0] S256x128.size inb_S256x128_S256x128_0_0
abbrev r0_2 : Rect S4000x128 := Rect.unit (s := S4000x128) ![0, 0] S4000x128.size inb_S4000x128_S4000x128_0_0

/-- The output window's staging buffer after the body: its one store, the product of the two loaded blocks. -/
def out0_2 (x0 : Vec F S4000x256 .f32) (x1 : Vec F S256x128 .f32) : Vec F S4000x128 .bf16 :=
  View.canon [⟨r0_2, k0_pay1 (View.ld x0 r0_0) (View.ld x1 r0_1)⟩]

/-- The store covers the buffer. -/
theorem cover0_2 (p0 : Vec F S4000x128 .bf16) (y : S4000x128.Idx) :
    ∃ pc ∈ ([⟨r0_2, p0⟩] : List (View.Piece (Elt F) S4000x128 .bf16)), y ∈ pc.1.set :=
  View.cover_of_tiled [⟨r0_2, p0⟩] S4000x128.size (by rfl) y

set_option maxHeartbeats 1000000 in
/-- The body on whole staging memrefs — the two inputs' at read contents, the output's at anything — runs to the
    continuation holding the inputs' as they were and the output's at `out0_2` of the inputs'. -/
theorem sound_kernel (c : Dev nD) (E : Set ℕ) (i : grid0.Coords)
    (arg1 : Memref sig .tc .vmem S4000x256 .f32) (harg1 : arg1.IsWhole)
    (arg2 : Memref sig .tc .vmem S256x128 .f32) (harg2 : arg2.IsWhole)
    (arg3 : Memref sig .tc .vmem S4000x128 .bf16) (harg3 : arg3.IsWhole)
    (x0 : Vec F S4000x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option maxHeartbeats 8000000 in
set_option backward.isDefEq.respectTransparency.types false in
/-- Every weakly fair execution of @main terminates, and every final state has every array of the pipeline at what
    the proof data give and every other unscoped buffer as the later operations leave it. -/
theorem run_main : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-! ## The arguments end as launched -/

/-- An argument no window stages, after the later operations: as launched. -/
theorem W_rest (dts : (p : Fin _) → (c : Dev nD) → Dat τ (Elt F) Unit ℕ (UR sig nD τ) ℕ (cfgs p) c) (c : Dev nD)
    (b : Ref sig .tc) (hb : Kept b) (hne : ∀ w, Pipeline.arrRef spec0 w ≠ b) :
    Pipeline.afterTail₀ cfgs dts 0 (V0 m) tail c b = m ((c : Thread nD τ).loc b) := by
  unfold Pipeline.afterTail₀
  rw [after_tail_kept hb, Pipeline.withArrays_of_ne _ c (V0 m c) _ b hne]
  rfl

/-- What the frame run's post says of the five argument arrays: each ends as launched. -/
theorem post_args (r : PUnit × MemSt nD τ sig (Elt F))
    (h : Pipeline.FramePost cfgs (dats m) 0 (Pipeline.afterTail₀ cfgs (dats m) 0 (V0 m) tail) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans (A_eq m c 0)),
   ((h c).2 main_arg1 (Pipeline.mem_restRefs_of main_arg1 (by decide) (by decide))).trans
     (W_rest m (dats m) c main_arg1 (.inr (.inl rfl)) (by decide)),
   ((h c).1 1).trans (((dats m 0 c).arrAt_in 1 rfl _).trans (A_eq m c 1)),
   ((h c).2 main_arg3 (Pipeline.mem_restRefs_of main_arg3 (by decide) (by decide))).trans
     (W_rest m (dats m) c main_arg3 (.inr (.inr (.inr (.inl rfl)))) (by decide)),
   ((h c).2 main_arg4 (Pipeline.mem_restRefs_of main_arg4 (by decide) (by decide))).trans
     (W_rest m (dats m) c main_arg4 (.inr (.inr (.inr (.inr (.inl rfl))))) (by decide))⟩

/-- THE FRAME: every weakly fair execution of @main terminates, nothing faulting, the five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => post_args m r h c) (run_main m ρ)

end Cert.Kernel.Around

end
-- ==== Proof.KernelIdealAround.lean ====
/-
  The frame run of `KernelIdeal`, at any float instance `F`: @main is one pipelined region — twenty-five grid points,
  each computing a 4000-row block of the product `x · W` on the matrix unit — followed by seventy-three host
  operations in four stretches (the degree count, the normalisation, the gather / scatter aggregation, the bias and
  the per-channel slope). The region's proof data name what each point leaves in the output window's staging buffer
  (the body's one store over the two loaded blocks); the host operations after the region write fresh buffers only,
  so every argument array ends as launched, and the result buffer ends at the operations' composed term of the
  product array and the arguments (`Pipeline.afterTail₀`).
-/
import proofs.«133080_j10007273799959_2_alg».proof.Proof.Gen.KernelIdeal.Launch
import proofs.«133080_j10007273799959_2_alg».proof.Proof.Gen.KernelIdeal.Skeleton
import proofs.«133080_j10007273799959_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host operations -/

/-- The host operations after the region, stretch by stretch. -/
abbrev tail : List (List (HloOp τ sig (Elt F))) := [hostOps1, hostOps1_1, hostOps1_2, hostOps1_3]

/-- The buffers as the region finds them: no host operation comes before it, so they are the launch contents. -/
abbrev V0 (c : Dev nD) : Valuation τ sig (Elt F) :=
  StableHlo.after (List.flatten ([] : List (List (HloOp τ sig (Elt F))))) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 8000000 in
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

set_option maxHeartbeats 8000000 in
/-- @main reduces to the region continued by the four stretches of host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [] [hostOps1, hostOps1_1, hostOps1_2, hostOps1_3] trivial trivial
    (fun c => (main_chain c).trans (by simp only [List.map_nil, List.map_cons, List.nil_append, List.cons_append]))

/-- The later operations touch the pipeline's arrays and the buffers that bypass the region only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- They allocate nothing. -/
theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- The buffers no later operation writes: the five arguments and the product. -/
def Kept (b : Ref sig .tc) : Prop :=
  b = main_arg0 ∨ b = main_arg1 ∨ b = main_arg2 ∨ b = main_arg3 ∨ b = main_arg4 ∨ b = main_v0

theorem ne_of_kept {b y : Ref sig .tc} (hb : Kept b) (h0 : main_arg0 ≠ y) (h1 : main_arg1 ≠ y) (h2 : main_arg2 ≠ y)
    (h3 : main_arg3 ≠ y) (h4 : main_arg4 ≠ y) (h5 : main_v0 ≠ y) :
    Proc.devRef (τ := τ) .tc b ≠ Proc.devRef .tc y := by
  rcases hb with rfl | rfl | rfl | rfl | rfl | rfl
  · exact StableHlo.devRef_ne_of_ne h0
  · exact StableHlo.devRef_ne_of_ne h1
  · exact StableHlo.devRef_ne_of_ne h2
  · exact StableHlo.devRef_ne_of_ne h3
  · exact StableHlo.devRef_ne_of_ne h4
  · exact StableHlo.devRef_ne_of_ne h5

theorem keeps1 : (hostOps1 : List (HloOp τ sig (Elt F))).Forall fun op =>
    ∀ b, Kept b → Proc.devRef .tc b ∉ op.writes := by
  simp only [hostOps1, List.Forall, StableHlo.nullary_writes, StableHlo.unary_writes, StableHlo.binary_writes,
    StableHlo.ternary_writes, StableHlo.reshape_writes, Finset.mem_singleton]
  repeat' apply And.intro
  all_goals exact fun b hb => ne_of_kept hb (by decide) (by decide) (by decide) (by decide) (by decide) (by decide)
theorem keeps1_1 : (hostOps1_1 : List (HloOp τ sig (Elt F))).Forall fun op =>
    ∀ b, Kept b → Proc.devRef .tc b ∉ op.writes := by
  simp only [hostOps1_1, List.Forall, StableHlo.nullary_writes, StableHlo.unary_writes, StableHlo.binary_writes,
    StableHlo.ternary_writes, StableHlo.reshape_writes, Finset.mem_singleton]
  repeat' apply And.intro
  all_goals exact fun b hb => ne_of_kept hb (by decide) (by decide) (by decide) (by decide) (by decide) (by decide)
set_option maxHeartbeats 8000000 in
theorem keeps1_2 : (hostOps1_2 : List (HloOp τ sig (Elt F))).Forall fun op =>
    ∀ b, Kept b → Proc.devRef .tc b ∉ op.writes := by
  simp only [hostOps1_2, List.Forall, StableHlo.nullary_writes, StableHlo.unary_writes, StableHlo.binary_writes,
    StableHlo.ternary_writes, StableHlo.reshape_writes, Finset.mem_singleton]
  repeat' apply And.intro
  all_goals exact fun b hb => ne_of_kept hb (by decide) (by decide) (by decide) (by decide) (by decide) (by decide)
theorem keeps1_3 : (hostOps1_3 : List (HloOp τ sig (Elt F))).Forall fun op =>
    ∀ b, Kept b → Proc.devRef .tc b ∉ op.writes := by
  simp only [hostOps1_3, List.Forall, StableHlo.nullary_writes, StableHlo.unary_writes, StableHlo.binary_writes,
    StableHlo.ternary_writes, StableHlo.reshape_writes, Finset.mem_singleton]
  exact fun b hb => ne_of_kept hb (by decide) (by decide) (by decide) (by decide) (by decide) (by decide)

/-- No later operation writes a kept buffer. -/
theorem tail_not_writes {b : Ref sig .tc} (hb : Kept b) :
    ∀ op ∈ (tail : List (List (HloOp τ sig (Elt F)))).flatten, Proc.devRef .tc b ∉ op.writes := by
  intro op hop
  simp only [List.flatten_cons, List.flatten_nil, List.append_nil, List.mem_append] at hop
  rcases hop with hop | hop | hop | hop
  · exact (List.forall_iff_forall_mem.mp keeps1) op hop b hb
  · exact (List.forall_iff_forall_mem.mp keeps1_1) op hop b hb
  · exact (List.forall_iff_forall_mem.mp keeps1_2) op hop b hb
  · exact (List.forall_iff_forall_mem.mp keeps1_3) op hop b hb

/-- So a kept buffer holds after the later operations what it held before them. -/
theorem after_tail_kept {b : Ref sig .tc} (hb : Kept b) (W : Valuation τ sig (Elt F)) :
    StableHlo.after (tail : List (List (HloOp τ sig (Elt F)))).flatten W (Proc.devRef .tc b) = W (Proc.devRef .tc b) :=
  StableHlo.after_of_forall_not_mem _ W (tail_not_writes hb)

theorem kept_arr (w : Fin 3) : Kept (Pipeline.arrRef spec0 w) := by
  fin_cases w
  · exact .inl rfl
  · exact .inr (.inr (.inl rfl))
  · exact .inr (.inr (.inr (.inr (.inr rfl))))

/-- The later operations write no array of the pipeline: each writes its own result buffer. -/
theorem sfx_keeps : ∀ ops ∈ (tail : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl | rfl
  · exact (List.forall_iff_forall_mem.mp keeps1) op hop _ (kept_arr w)
  · exact (List.forall_iff_forall_mem.mp keeps1_1) op hop _ (kept_arr w)
  · exact (List.forall_iff_forall_mem.mp keeps1_2) op hop _ (kept_arr w)
  · exact (List.forall_iff_forall_mem.mp keeps1_3) op hop _ (kept_arr w)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S4000x256 := Rect.unit (s := S4000x256) ![0, 0] S4000x256.size inb_S4000x256_S4000x256_0_0
abbrev r0_1 : Rect S256x128 := Rect.unit (s := S256x128) ![0, 0] S256x128.size inb_S256x128_S256x128_0_0
abbrev r0_2 : Rect S4000x128 := Rect.unit (s := S4000x128) ![0, 0] S4000x128.size inb_S4000x128_S4000x128_0_0

/-- The output window's staging buffer after the body: its one store, the product of the two loaded blocks. -/
def out0_2 (x0 : Vec F S4000x256 .f32) (x1 : Vec F S256x128 .f32) : Vec F S4000x128 .bf16 :=
  View.canon [⟨r0_2, k0_pay1 (View.ld x0 r0_0) (View.ld x1 r0_1)⟩]

/-- The store covers the buffer. -/
theorem cover0_2 (p0 : Vec F S4000x128 .bf16) (y : S4000x128.Idx) :
    ∃ pc ∈ ([⟨r0_2, p0⟩] : List (View.Piece (Elt F) S4000x128 .bf16)), y ∈ pc.1.set :=
  View.cover_of_tiled [⟨r0_2, p0⟩] S4000x128.size (by rfl) y

set_option maxHeartbeats 1000000 in
/-- The body on whole staging memrefs — the two inputs' at read contents, the output's at anything — runs to the
    continuation holding the inputs' as they were and the output's at `out0_2` of the inputs'. -/
theorem sound_kernel (c : Dev nD) (E : Set ℕ) (i : grid0.Coords)
    (arg1 : Memref sig .tc .vmem S4000x256 .f32) (harg1 : arg1.IsWhole)
    (arg2 : Memref sig .tc .vmem S256x128 .f32) (harg2 : arg2.IsWhole)
    (arg3 : Memref sig .tc .vmem S4000x128 .bf16) (harg3 : arg3.IsWhole)
    (x0 : Vec F S4000x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option maxHeartbeats 8000000 in
set_option backward.isDefEq.respectTransparency.types false in
/-- Every weakly fair execution of @main terminates, and every final state has every array of the pipeline at what
    the proof data give and every other unscoped buffer as the later operations leave it. -/
theorem run_main : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-! ## The arguments end as launched -/

/-- An argument no window stages, after the later operations: as launched. -/
theorem W_rest (dts : (p : Fin _) → (c : Dev nD) → Dat τ (Elt F) Unit ℕ (UR sig nD τ) ℕ (cfgs p) c) (c : Dev nD)
    (b : Ref sig .tc) (hb : Kept b) (hne : ∀ w, Pipeline.arrRef spec0 w ≠ b) :
    Pipeline.afterTail₀ cfgs dts 0 (V0 m) tail c b = m ((c : Thread nD τ).loc b) := by
  unfold Pipeline.afterTail₀
  rw [after_tail_kept hb, Pipeline.withArrays_of_ne _ c (V0 m c) _ b hne]
  rfl

/-- What the frame run's post says of the five argument arrays: each ends as launched. -/
theorem post_args (r : PUnit × MemSt nD τ sig (Elt F))
    (h : Pipeline.FramePost cfgs (dats m) 0 (Pipeline.afterTail₀ cfgs (dats m) 0 (V0 m) tail) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans (A_eq m c 0)),
   ((h c).2 main_arg1 (Pipeline.mem_restRefs_of main_arg1 (by decide) (by decide))).trans
     (W_rest m (dats m) c main_arg1 (.inr (.inl rfl)) (by decide)),
   ((h c).1 1).trans (((dats m 0 c).arrAt_in 1 rfl _).trans (A_eq m c 1)),
   ((h c).2 main_arg3 (Pipeline.mem_restRefs_of main_arg3 (by decide) (by decide))).trans
     (W_rest m (dats m) c main_arg3 (.inr (.inr (.inr (.inl rfl)))) (by decide)),
   ((h c).2 main_arg4 (Pipeline.mem_restRefs_of main_arg4 (by decide) (by decide))).trans
     (W_rest m (dats m) c main_arg4 (.inr (.inr (.inr (.inr (.inl rfl))))) (by decide))⟩

/-- THE FRAME: every weakly fair execution of @main terminates, nothing faulting, the five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => post_args m r h c) (run_main m ρ)

end Cert.KernelIdeal.Around

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.KernelIdealProduct.lean ====
/-
  What the region leaves in the product array, at the ideal values: entry `(i, f)` is the sum over the 256 inner
  positions `k` of `x (i, k) · W (k, f)`. Grid point `t` holds rows `4000 t … 4000 t + 3999` of `x` and the whole of
  `W`; the body's one store is the matrix unit's product of the two loaded blocks into a zero accumulator (the
  changes of float format are the identity on extended reals); the twenty-five blocks written back tile the array.
-/
import proofs.«133080_j10007273799959_2_alg».proof.Proof.KernelIdealAround
import proofs.«133080_j10007273799959_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen Cert.KernelIdeal.Around
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The product of the two arrays, entry by entry. -/
def H (x : FVec Ideal S100000x256 .f32) (w : FVec Ideal S256x128 .f32) : FVec Ideal S100000x128 .bf16 :=
  fun i => ∑ k : Fin 256, x (ix2 (i 0) k) * w (ix2 k (i 1))

theorem hz : (![0, 0] : Fin 2 → Nat) = fun _ => 0 := funext fun a => by fin_cases a <;> rfl

/-- The block product's dimension record reads its operands as rows by inner, inner by columns. -/
theorem reads_block : Cert.Lib.PlainDot.Reads (R := 4000) (K := 256) (C := 128) dot_S4000x256_S256x128_S4000x128_1_0_0_1_n_n where
  rank := rfl
  size := rfl
  lhs0 := fun i q => by
    unfold DotDims.lhsIdx
    rw [dif_neg (show ¬(0 : Fin S4000x256.rank) ∈ dot_S4000x256_S256x128_S4000x128_1_0_0_1_n_n.lhsBatch by decide),
      dif_pos (show (0 : Fin S4000x256.rank) ∈ dot_S4000x256_S256x128_S4000x128_1_0_0_1_n_n.lhsNonContracting by decide)]
    rfl
  lhs1 := fun i q => dot_S4000x256_S256x128_S4000x128_1_0_0_1_n_n.lhsIdx_val_of_single rfl i q
  rhs0 := fun i q => dot_S4000x256_S256x128_S4000x128_1_0_0_1_n_n.rhsIdx_val_of_single rfl i q
  rhs1 := fun i q => by
    unfold DotDims.rhsIdx
    rw [dif_neg (show ¬(1 : Fin S256x128.rank) ∈ dot_S4000x256_S256x128_S4000x128_1_0_0_1_n_n.rhsBatch by decide),
      dif_pos (show (1 : Fin S256x128.rank) ∈ dot_S4000x256_S256x128_S4000x128_1_0_0_1_n_n.rhsNonContracting by decide)]
    rfl

/-- The body's stored value at `(p, q)`: the sum over the inner axis of the two loaded blocks' products. -/
theorem pay_apply (v0 : Vec Ideal S4000x256 .f32) (v2 : Vec Ideal S256x128 .f32) (p : Fin 4000) (q : Fin 128) :
    k0_pay1 (F := Ideal) v0 v2 (ix2 p q) = ∑ k : Fin 256, v0 (ix2 p k) * v2 (ix2 k q) :=
  Cert.Lib.PlainDot.matmul_zero_apply reads_block none (φ₁ := .bf16) (φ₂ := .bf16) v0 v2 p q

/-- A sum of products read along row `i 0` of the left array and column `i 1` of the right one is the product's entry. -/
theorem sum_block (x0 : FVec Ideal S100000x256 .f32) (x1 : FVec Ideal S256x128 .f32)
    (e0 : Fin 256 → S100000x256.Idx) (e1 : Fin 256 → S256x128.Idx) (i : S100000x128.Idx)
    (h0 : ∀ k, e0 k = ix2 (i 0) k) (h1 : ∀ k, e1 k = ix2 k (i 1)) :
    ∑ k : Fin 256, x0 (e0 k) * x1 (e1 k) = ∑ k : Fin 256, x0 (ix2 (i 0) k) * x1 (ix2 k (i 1)) :=
  Finset.sum_congr rfl fun k _ => by rw [h0, h1]; rfl

/-- The printed index maps over the grid: the row blocks of `x` and of the product move with the point, `W` stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the argument arrays. -/
theorem flushed_eq (c : Dev nD) (t : Fin cfg0.N) :
    (dats m 0 c).flushed 2 t = ((cfg0.win 2).blk t).view.read (Elt Ideal) (H (V m c main_arg0) (V m c main_arg2)) := by
  show (cfg0.win 2).cut (grid0.coords t) ((dats m 0 c).after 2 t) = _
  rw [after0_2]
  unfold out0_2
  rw [View.canon_unit_zero hz]
  simp only [View.ld_unit_zero (S := S4000x256) hz, View.ld_unit_zero (S := S256x128) hz]
  obtain ⟨e0, e1, e2, e3, e4, e5⟩ := idx_facts t
  funext j
  obtain ⟨p, q, rfl⟩ : ∃ (p : Fin 4000) (q : Fin 128), j = ix2 p q := ⟨j 0, j 1, eq_ix2 j⟩
  refine (pay_apply _ _ p q).trans ?_
  refine (sum_block (V m c main_arg0) (V m c main_arg2) (fun k => ((cfg0.win 0).blk t).view.emb (ix2 p k))
    (fun k => ((cfg0.win 1).blk t).view.emb (ix2 k q)) (((cfg0.win 2).blk t).view.emb (ix2 p q)) (fun k => ?_) (fun k => ?_)).trans rfl
  · funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 256 + 1 * k.val = k.val; omega
  · funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v0).slice (win0_2.rect t)).set ↔ _
  rw [View.set_slice_whole, Rect.mem_set_unit]
  exact Iff.rfl

/-- Every entry of the array lies in the block of the point that holds its row. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 4000, by show (i 0).val / 4000 < 25; omega⟩, flush0_2 _, ?_⟩
  rw [mem_blk]
  obtain ⟨-, -, -, -, e4, e5⟩ := idx_facts ⟨(i 0).val / 4000, by show (i 0).val / 4000 < 25; omega⟩
  intro a
  match a with
  | ⟨0, _⟩ =>
    show win0_2.index _ (0 : Fin 2) * 4000 ≤ (i 0).val ∧ (i 0).val < win0_2.index _ (0 : Fin 2) * 4000 + 4000
    rw [e4]; show (i 0).val / 4000 * 4000 ≤ (i 0).val ∧ (i 0).val < (i 0).val / 4000 * 4000 + 4000; omega
  | ⟨1, _⟩ =>
    show win0_2.index _ (1 : Fin 2) * 128 ≤ (i 1).val ∧ (i 1).val < win0_2.index _ (1 : Fin 2) * 128 + 128
    rw [e5]; omega

/-- THE PRODUCT ARRAY after the run. -/
theorem final (c : Dev nD) : (dats m 0 c).arrAt 2 cfg0.N
    = H (m ((c : Thread nD τ).loc main_arg0)) (m ((c : Thread nD τ).loc main_arg2)) :=
  (dats m 0 c).arrAt_eq_of_cover 2 (H (V m c main_arg0) (V m c main_arg2)) (fun t _ => flushed_eq m c t) cover

end Cert.KernelIdeal.Product

end
-- ==== Proof.LibRowIndex.lean ====
/-
  Rows indexed by data: a scatter-add of rows and a gather of rows, read at an index.

  `x.at[idx].add(upd)` over the rows of an `[R, C]` table (one row index per update row, carried as an `[N, 1]` array of
  words) is, at the ideal values, the table's entry plus the sum of the update rows whose index IS that row: the index
  word is read signed and NOT clamped, so a word outside `[0, R)` names no row and its update is dropped. The same
  for a flat `[R]` table of scalars. `x[idx]` over the rows of an `[R, C]` table reads row `min (toNat idx) (R - 1)`: the
  word read signed and CLAMPED into `[0, R - 1]`. The two meet where it matters: a word that names a row for the
  scatter names the same row for the gather (`clampRow_of_eq`).
-/
import Idealize.ShloMosaic.PureOps.Ideal
import Idealize.ShloMosaic.Lib.ValueIdx

noncomputable section

open scoped BigOperators

namespace Cert.RowIndex

open Idealize.ShloMosaic Idealize.ShloMosaic.ValueIdx

/-! ## The dimension numbers -/

/-- A scatter of `[N, C]` update rows into the rows of an `[R, C]` table, the row named by an `[N, 1]` array of words. -/
abbrev rowScatter (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

variable {R C N w : Nat}

section Scatter
variable (wf : ScatterDims.WF ⟨2, ![R, C]⟩ ⟨2, ![N, 1]⟩ ⟨2, ![N, C]⟩ [1] [0] [0] 1)
  (j : (⟨2, ![N, C]⟩ : Shape).Idx) (idx : IVec ⟨2, ![N, 1]⟩ w)

theorem rowScatter_start0 : (rowScatter R C N wf).start j idx 0 = (idx (ix2 (j 0) (0 : Fin 1))).toInt := by
  unfold ScatterDims.start
  rw [dif_pos (show (0 : Fin 2) ∈ (rowScatter R C N wf).scatterDimsToOperandDims from List.mem_singleton.mpr rfl)]
  have hsi : (rowScatter R C N wf).siIdx j ⟨List.idxOf (0 : Fin 2) (rowScatter R C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_start1 : (rowScatter R C N wf).start j idx 1 = 0 := by
  unfold ScatterDims.start
  rw [dif_neg (show ¬ (1 : Fin 2) ∈ (rowScatter R C N wf).scatterDimsToOperandDims from
    (by decide : ¬ (1 : Fin 2) ∈ ([0] : List (Fin 2))))]

theorem rowScatter_window0 : (rowScatter R C N wf).window j 0 = 0 := by
  unfold ScatterDims.window
  rw [dif_neg (show ¬ (0 : Fin 2) ∈ (rowScatter R C N wf).sKept from
    (by decide : ¬ (0 : Fin 2) ∈ ([1] : List (Fin 2))))]

theorem rowScatter_window1 : (rowScatter R C N wf).window j 1 = (j 1).val := by
  unfold ScatterDims.window
  rw [dif_pos (show (1 : Fin 2) ∈ (rowScatter R C N wf).sKept from
    (by decide : (1 : Fin 2) ∈ ([1] : List (Fin 2))))]
  rfl

/-- An update row lands on the table row its index word names, column for column; a word outside `[0, R)` lands nowhere. -/
theorem rowScatter_resultIdx?_eq_some_iff (i : (⟨2, ![R, C]⟩ : Shape).Idx) :
    (rowScatter R C N wf).resultIdx? j idx = some i
      ↔ (idx (ix2 (j 0) (0 : Fin 1))).toInt = ((i 0).val : ℤ) ∧ (j 1).val = (i 1).val := by
  have hs0 := rowScatter_start0 wf j idx
  have hs1 := rowScatter_start1 wf j idx
  have hw0 := rowScatter_window0 wf j
  have hw1 := rowScatter_window1 wf j
  have hi0 := idx2_lt0 i
  have hi1 := idx2_lt1 i
  have hj1 := idx2_lt1 j
  unfold ScatterDims.resultIdx?
  split
  · rename_i h
    rw [Option.some.injEq]
    constructor
    · intro e
      have e0 : ((rowScatter R C N wf).start j idx 0 + ((rowScatter R C N wf).window j 0 : ℤ)).toNat = (i 0).val :=
        congrArg (fun f : (⟨2, ![R, C]⟩ : Shape).Idx => (f 0).val) e
      have e1 : ((rowScatter R C N wf).start j idx 1 + ((rowScatter R C N wf).window j 1 : ℤ)).toNat = (i 1).val :=
        congrArg (fun f : (⟨2, ![R, C]⟩ : Shape).Idx => (f 1).val) e
      have h0 := (h 0).1
      rw [hs0, hw0] at e0 h0
      rw [hs1, hw1] at e1
      constructor <;> omega
    · rintro ⟨e0, e1⟩
      funext a
      refine Fin.ext ?_
      match a with
      | ⟨0, _⟩ =>
        show ((rowScatter R C N wf).start j idx 0 + ((rowScatter R C N wf).window j 0 : ℤ)).toNat = (i 0).val
        rw [hs0, hw0]; omega
      | ⟨1, _⟩ =>
        show ((rowScatter R C N wf).start j idx 1 + ((rowScatter R C N wf).window j 1 : ℤ)).toNat = (i 1).val
        rw [hs1, hw1]; omega
  · rename_i h
    constructor
    · intro e; cases e
    · rintro ⟨e0, e1⟩
      exfalso; apply h
      intro a
      match a with
      | ⟨0, _⟩ =>
        show 0 ≤ (rowScatter R C N wf).start j idx 0 + ((rowScatter R C N wf).window j 0 : ℤ)
          ∧ (rowScatter R C N wf).start j idx 0 + ((rowScatter R C N wf).window j 0 : ℤ) < (R : ℤ)
        rw [hs0, hw0]; omega
      | ⟨1, _⟩ =>
        show 0 ≤ (rowScatter R C N wf).start j idx 1 + ((rowScatter R C N wf).window j 1 : ℤ)
          ∧ (rowScatter R C N wf).start j idx 1 + ((rowScatter R C N wf).window j 1 : ℤ) < (C : ℤ)
        rw [hs1, hw1]; omega

/-- THE ROW SCATTER-ADD READ AT `(g, c)`, at the ideal values: the table's entry plus the sum, over the update rows whose
    index word is `g`, of their entry in column `c`. -/
theorem rowScatterAdd_apply (x : FVec Ideal ⟨2, ![R, C]⟩ .f32) (upd : FVec Ideal ⟨2, ![N, C]⟩ .f32) (g : Fin R) (c : Fin C) :
    Host.scatterAdd (F := Ideal) (rowScatter R C N wf) x idx upd (ix2 g c)
      = x (ix2 g c) + ∑ n ∈ Finset.univ.filter (fun n : Fin N => (idx (ix2 n (0 : Fin 1))).toInt = (g.val : ℤ)), upd (ix2 n c) := by
  show x (ix2 g c) + ∑ j ∈ Finset.univ.filter (fun j => (rowScatter R C N wf).resultIdx? j idx = some (ix2 g c)), upd j = _
  congr 1
  rw [Finset.sum_filter, sum_idx2, Finset.sum_filter]
  refine Finset.sum_congr rfl fun n _ => ?_
  by_cases hn : (idx (ix2 n (0 : Fin 1))).toInt = (g.val : ℤ)
  · rw [if_pos hn]
    rw [Finset.sum_eq_single c]
    · rw [if_pos ((rowScatter_resultIdx?_eq_some_iff wf (ix2 n c) idx (ix2 g c)).2 ⟨hn, rfl⟩)]
    · intro b _ hb
      rw [if_neg]
      intro h
      exact hb (Fin.ext ((rowScatter_resultIdx?_eq_some_iff wf (ix2 n b) idx (ix2 g c)).1 h).2)
    · intro h; exact absurd (Finset.mem_univ c) h
  · rw [if_neg hn]
    refine Finset.sum_eq_zero fun b _ => ?_
    rw [if_neg]
    intro h
    exact hn ((rowScatter_resultIdx?_eq_some_iff wf (ix2 n b) idx (ix2 g c)).1 h).1

end Scatter

/-! ## The flat table: one scalar per row -/

/-- A scatter of `[N]` scalars into an `[R]` table, the entry named by an `[N, 1]` array of words. -/
abbrev flatScatter (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

section Flat
variable (wf : ScatterDims.WF ⟨1, ![R]⟩ ⟨2, ![N, 1]⟩ ⟨1, ![N]⟩ [] [0] [0] 1)
  (j : (⟨1, ![N]⟩ : Shape).Idx) (idx : IVec ⟨2, ![N, 1]⟩ w)

theorem flatScatter_start0 : (flatScatter R N wf).start j idx 0 = (idx (ix2 (j 0) (0 : Fin 1))).toInt := by
  unfold ScatterDims.start
  rw [dif_pos (show (0 : Fin 1) ∈ (flatScatter R N wf).scatterDimsToOperandDims from List.mem_singleton.mpr rfl)]
  have hsi : (flatScatter R N wf).siIdx j ⟨List.idxOf (0 : Fin 1) (flatScatter R N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 : (flatScatter R N wf).window j 0 = 0 := by
  unfold ScatterDims.window
  rw [dif_neg (show ¬ (0 : Fin 1) ∈ (flatScatter R N wf).sKept from
    (by decide : ¬ (0 : Fin 1) ∈ ([] : List (Fin 1))))]

/-- A scalar update lands on the entry its index word names; a word outside `[0, R)` lands nowhere. -/
theorem flatScatter_resultIdx?_eq_some_iff (i : (⟨1, ![R]⟩ : Shape).Idx) :
    (flatScatter R N wf).resultIdx? j idx = some i ↔ (idx (ix2 (j 0) (0 : Fin 1))).toInt = ((i 0).val : ℤ) := by
  have hs0 := flatScatter_start0 wf j idx
  have hw0 := flatScatter_window0 wf j
  have hi0 : (i 0).val < R := (i 0).isLt
  unfold ScatterDims.resultIdx?
  split
  · rename_i h
    rw [Option.some.injEq]
    constructor
    · intro e
      have e0 : ((flatScatter R N wf).start j idx 0 + ((flatScatter R N wf).window j 0 : ℤ)).toNat = (i 0).val :=
        congrArg (fun f : (⟨1, ![R]⟩ : Shape).Idx => (f 0).val) e
      have h0 := (h 0).1
      rw [hs0, hw0] at e0 h0
      omega
    · intro e0
      funext a
      refine Fin.ext ?_
      match a with
      | ⟨0, _⟩ =>
        show ((flatScatter R N wf).start j idx 0 + ((flatScatter R N wf).window j 0 : ℤ)).toNat = (i 0).val
        rw [hs0, hw0]; omega
  · rename_i h
    constructor
    · intro e; cases e
    · intro e0
      exfalso; apply h
      intro a
      match a with
      | ⟨0, _⟩ =>
        show 0 ≤ (flatScatter R N wf).start j idx 0 + ((flatScatter R N wf).window j 0 : ℤ)
          ∧ (flatScatter R N wf).start j idx 0 + ((flatScatter R N wf).window j 0 : ℤ) < (R : ℤ)
        rw [hs0, hw0]; omega

/-- THE FLAT SCATTER-ADD READ AT `g`, at the ideal values: the table's entry plus the sum of the updates whose index word is `g`. -/
theorem flatScatterAdd_apply (x : FVec Ideal ⟨1, ![R]⟩ .f32) (upd : FVec Ideal ⟨1, ![N]⟩ .f32) (g : Fin R) :
    Host.scatterAdd (F := Ideal) (flatScatter R N wf) x idx upd (ix1 g)
      = x (ix1 g) + ∑ n ∈ Finset.univ.filter (fun n : Fin N => (idx (ix2 n (0 : Fin 1))).toInt = (g.val : ℤ)), upd (ix1 n) := by
  show x (ix1 g) + ∑ j ∈ Finset.univ.filter (fun j => (flatScatter R N wf).resultIdx? j idx = some (ix1 g)), upd j = _
  congr 1
  refine Finset.sum_bij (fun (j : (⟨1, ![N]⟩ : Shape).Idx) _ => (j 0 : Fin N)) ?_ ?_ ?_ ?_
  · intro j hj
    exact Finset.mem_filter.2 ⟨Finset.mem_univ _,
      (flatScatter_resultIdx?_eq_some_iff wf j idx (ix1 g)).1 (Finset.mem_filter.1 hj).2⟩
  · intro a _ b _ hab
    rw [eq_ix1 a, eq_ix1 b]
    exact congrArg ix1 hab
  · intro n hn
    exact ⟨ix1 n, Finset.mem_filter.2 ⟨Finset.mem_univ _,
      (flatScatter_resultIdx?_eq_some_iff wf (ix1 n) idx (ix1 g)).2 (Finset.mem_filter.1 hn).2⟩, rfl⟩
  · intro j _
    exact congrArg upd (eq_ix1 j)

end Flat

/-! ## The row gather -/

/-- A gather of whole rows of an `[R, C]` table, the row named by an `[N, 1]` array of words. -/
abbrev rowGather (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row a word names for a gather from `R` rows: read signed, clamped into `[0, R - 1]`. -/
def clampRow (R : Nat) (hR : 0 < R) {w : Nat} (b : BitVec w) : Fin R := ⟨min b.toInt.toNat (R - 1), by omega⟩

/-- A word that names a row for the scatter (its signed value IS the row) names the same row for the gather. -/
theorem clampRow_of_eq (hR : 0 < R) (b : BitVec w) (g : Fin R) (h : b.toInt = (g.val : ℤ)) : clampRow R hR b = g := by
  refine Fin.ext ?_
  show min b.toInt.toNat (R - 1) = g.val
  have := g.isLt
  omega

/-- THE ROW GATHER READ AT `(n, c)`: the table at row `clampRow` of the `n`-th index word, column `c`. -/
theorem rowGather_apply {α : Type} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (n : Fin N) (c : Fin C) :
    Host.gather (rowGather R C N wf) x idx (ix2 n c) = x (ix2 (clampRow R hR (idx (ix2 n (0 : Fin 1)))) c) := by
  unfold Host.gather
  congr 1
  funext a
  refine Fin.ext ?_
  match a with
  | ⟨0, _⟩ =>
    show (rowGather R C N wf).start (ix2 n c) idx 0 + (rowGather R C N wf).batchCoord (ix2 n c) 0
      + (rowGather R C N wf).offCoord (ix2 n c) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C N wf).startIndexMap from List.mem_singleton.mpr rfl)]
    have hsi : (rowGather R C N wf).siIdx (ix2 n c) ⟨List.idxOf (0 : Fin 2) (rowGather R C N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowGather R C N wf).start (ix2 n c) idx 1 + (rowGather R C N wf).batchCoord (ix2 n c) 1
      + (rowGather R C N wf).offCoord (ix2 n c) 1 = c.val
    rw [GatherDims.batchCoord_eq_zero _ _ _ List.not_mem_nil]
    unfold GatherDims.start
    rw [dif_neg (show ¬ (1 : Fin 2) ∈ (rowGather R C N wf).startIndexMap from
      (by decide : ¬ (1 : Fin 2) ∈ ([0] : List (Fin 2))))]
    unfold GatherDims.offCoord
    rw [dif_pos (show (1 : Fin 2) ∈ (rowGather R C N wf).sKept from
      (by decide : (1 : Fin 2) ∈ ([1] : List (Fin 2))))]
    simp only [Nat.zero_add, Nat.add_zero]
    rfl

/-! ## Counting on the extended reals -/

/-- A sum of copies of one extended real is the count times it — at the infinities too, and for the empty sum (`0 · v = 0`):
    a product by a nonnegative factor distributes over a sum of nonnegative terms, which is all the induction needs. -/
theorem sum_const_eq_card_mul {ι : Type} [DecidableEq ι] (s : Finset ι) (v : EReal) :
    ∑ _n ∈ s, v = (∑ _n ∈ s, (1 : EReal)) * v := by
  induction s using Finset.induction_on with
  | empty => simp
  | insert a s ha ih =>
    rw [Finset.sum_insert ha, Finset.sum_insert ha, ih,
      EReal.right_distrib_of_nonneg zero_le_one (Finset.sum_nonneg fun _ _ => zero_le_one), one_mul]

end Cert.RowIndex

end
-- ==== Proof.LibFlatGather.lean ====
/-
  A gather of scalars indexed by data, read at an index.

  `x[idx]` over an `[R]` table of scalars (one index per result entry, carried as an `[N, 1]` array of words) reads the
  table at `min (toNat idx) (R - 1)`: the word read signed and CLAMPED into `[0, R - 1]` — the same row `clampRow` names
  for the gather of whole rows.
-/
import proofs.«133080_j10007273799959_2_alg».proof.Proof.LibRowIndex

noncomputable section

namespace Cert.RowIndex

open Idealize.ShloMosaic Idealize.ShloMosaic.ValueIdx

/-- A gather of scalars from an `[R]` table, the entry named by an `[N, 1]` array of words. -/
abbrev flatGather (R N : Nat) (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

variable {R N w : Nat}

/-- THE FLAT GATHER READ AT `n`: the table at entry `clampRow` of the `n`-th index word. -/
theorem flatGather_apply {α : Type} (hR : 0 < R)
    (wf : GatherDims.WF ⟨1, ![R]⟩ ⟨2, ![N, 1]⟩ ⟨1, ![N]⟩ [] [0] [] [0] [] 1 ![1])
    (x : (⟨1, ![R]⟩ : Shape).Idx → α) (idx : IVec ⟨2, ![N, 1]⟩ w) (n : Fin N) :
    Host.gather (flatGather R N wf) x idx (ix1 n) = x (ix1 (clampRow R hR (idx (ix2 n (0 : Fin 1))))) := by
  unfold Host.gather
  congr 1
  funext a
  refine Fin.ext ?_
  match a with
  | ⟨0, _⟩ =>
    show (flatGather R N wf).start (ix1 n) idx 0 + (flatGather R N wf).batchCoord (ix1 n) 0
      + (flatGather R N wf).offCoord (ix1 n) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatGather R N wf).startIndexMap from List.mem_singleton.mpr rfl)]
    have hsi : (flatGather R N wf).siIdx (ix1 n) ⟨List.idxOf (0 : Fin 1) (flatGather R N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl

end Cert.RowIndex

end
-- ==== Proof.LibColumnBcast.lean ====
/-
  The host's column layouts read at an index: a vector of `a` entries stood up as an `[a, 1]` column by a
  `broadcast_in_dim` along dim 0 (entry `i` stays entry `i`), and an `[a, 1]` column spread along its unit axis to
  `[a, b]` by a `broadcast_in_dim` along dims (0, 1) (row `p` is `b` copies of the column's entry `p`). Generic in the
  extents and in the element type; the companions, for the host's operation, of the vector casts and broadcasts of
  the same layouts.
-/
import Idealize.ShloMosaic.Lib.Pipeline.Value
import Idealize.ShloMosaic.Lib.ValueIdx

namespace Cert.Lib.ColumnBcast

open Idealize.ShloMosaic Idealize.ShloMosaic.ValueIdx

variable {α : Type}

/-- An `[a]` vector broadcast to an `[a, 1]` column along dim 0 reads, at `(i, u)`, the vector at `i`. -/
theorem bcast_vec_col_apply {a : ℕ} (dims : Fin 1 → Fin 2) (hd : dims = ![0])
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  subst hd
  refine broadcastInDim_apply _ h x (ix2 i u) (ix1 i) fun ax => ?_
  match ax with
  | ⟨0, _⟩ =>
    show i.val = if a = 1 then 0 else i.val
    split
    · have := i.isLt; omega
    · rfl

/-- An `[a, 1]` column broadcast to `[a, b]` along dims (0, 1) reads, at `(p, c)`, the column's entry `p`. -/
theorem bcast_col_apply {a b : ℕ} (dims : Fin 2 → Fin 2) (hd : dims = ![0, 1])
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  subst hd
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBcast
-- ==== Proof.LibBiasLayout.lean ====
/-
  A bias laid out as a row, and a scalar spread over an array, read at an index.

  `broadcast_in_dim` of a rank-0 value to any shape reads that one value everywhere; of a `[1, b]` row to `[a, b]` along
  dims (0, 1) it reads, at `(p, c)`, the row at `c`; of a `[b]` vector to a `[1, b]` row along dim 1 it reads, at
  `(u, i)`, the vector at `i` — which is also what the reshape `[b] → [1, b]` reads, so the two layouts of a bias as a
  row are one array.
-/
import Idealize.ShloMosaic.Lib.Pipeline.Value
import Idealize.ShloMosaic.Lib.ValueIdx
import Idealize.ShloMosaic.Lib.ValueLayout

noncomputable section

namespace Cert.Lib.BiasLayout

open Idealize.ShloMosaic Idealize.ShloMosaic.ValueIdx

variable {α : Type}

/-- A rank-0 value broadcast to any shape reads that value at every index. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A `[1, b]` row broadcast to `[a, b]` along dims (0, 1) reads, at `(p, c)`, the row at `c`. -/
theorem bcast_row_apply {a b : ℕ} (dims : Fin 2 → Fin 2) (hd : dims = ![0, 1])
    (h : (⟨2, ![1, b]⟩ : Shape).BroadcastsInDim ⟨2, ![a, b]⟩ dims) (v : (⟨2, ![1, b]⟩ : Shape).Idx → α)
    (p : Fin a) (c : Fin b) : broadcastInDim ⟨2, ![a, b]⟩ dims h v (ix2 p c) = v (ix2 (0 : Fin 1) c) := by
  subst hd
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A `[b]` vector broadcast to a `[1, b]` row along dim 1 reads, at `(u, i)`, the vector at `i`. -/
theorem bcast_vec_row_apply {b : ℕ} (dims : Fin 1 → Fin 2) (hd : dims = ![1])
    (h : (⟨1, ![b]⟩ : Shape).BroadcastsInDim ⟨2, ![1, b]⟩ dims) (x : (⟨1, ![b]⟩ : Shape).Idx → α)
    (u : Fin 1) (i : Fin b) : broadcastInDim ⟨2, ![1, b]⟩ dims h x (ix2 u i) = x (ix1 i) := by
  subst hd
  refine broadcastInDim_apply _ h x (ix2 u i) (ix1 i) fun ax => ?_
  match ax with
  | ⟨0, _⟩ =>
    show i.val = if b = 1 then 0 else i.val
    split
    · have := i.isLt; omega
    · rfl

/-- So the reshape `[b] → [1, b]` and the broadcast `[b] → [1, b]` along dim 1 lay a vector out as the same row. -/
theorem reshape_row_eq_bcast_row {b : ℕ} (dims : Fin 1 → Fin 2) (hd : dims = ![1])
    (hc : (⟨1, ![b]⟩ : Shape).ShapeCasts ⟨2, ![1, b]⟩) (hb : (⟨1, ![b]⟩ : Shape).BroadcastsInDim ⟨2, ![1, b]⟩ dims)
    (x : (⟨1, ![b]⟩ : Shape).Idx → α) :
    shapeCast ⟨2, ![1, b]⟩ x hc = broadcastInDim ⟨2, ![1, b]⟩ dims hb x := by
  funext j
  obtain ⟨u, i, rfl⟩ : ∃ (u : Fin 1) (i : Fin b), j = ix2 u i := ⟨j 0, j 1, eq_ix2 j⟩
  rw [shapeCast_a_1a_apply x hc u i, bcast_vec_row_apply dims hd hb x u i]

end Cert.Lib.BiasLayout

end
-- ==== Proof.LibSumSplit.lean ====
/-
  Filtered sums over an index range cut in two, in any additive commutative monoid (so on the extended reals, with
  no finiteness): a filtered sum over `Fin N` with `N = a + b` is the filtered sum over the first `a` positions
  plus the filtered sum over the last `b`; a filtered sum whose filter holds at exactly one position is the term
  there; and a 32-bit word made from a natural number below `2^31` reads back, signed, as that number — so among
  the words `0, 1, …, b - 1` laid out in order exactly one names a given row.
-/
import Mathlib

namespace Cert.Lib.SumSplit

open Finset

variable {M : Type*} [AddCommMonoid M]

/-- A filtered sum over `Fin N`, `N = a + b`: the first `a` positions, then the last `b`. -/
theorem sum_filter_split {a b N : ℕ} (h : a + b = N) (p : Fin N → Prop) [DecidablePred p] (f : Fin N → M) :
    ∑ n ∈ univ.filter p, f n
      = ∑ e ∈ (univ : Finset (Fin a)).filter (fun e => p (Fin.cast h (Fin.castAdd b e))), f (Fin.cast h (Fin.castAdd b e))
        + ∑ j ∈ (univ : Finset (Fin b)).filter (fun j => p (Fin.cast h (Fin.natAdd a j))), f (Fin.cast h (Fin.natAdd a j)) := by
  subst h
  simp only [Finset.sum_filter]
  exact Fin.sum_univ_add (fun n => if p n then f n else 0)

/-- A filtered sum whose filter holds at exactly one position is the term there. -/
theorem sum_filter_unique {ι : Type*} [Fintype ι] [DecidableEq ι] (p : ι → Prop) [DecidablePred p] (g : ι)
    (hp : ∀ j, p j ↔ j = g) (f : ι → M) : ∑ j ∈ univ.filter p, f j = f g := by
  have hs : univ.filter p = {g} := by
    ext j
    simp only [Finset.mem_filter, Finset.mem_univ, true_and, Finset.mem_singleton]
    exact hp j
  rw [hs, Finset.sum_singleton]

/-- A 32-bit word made from a natural number below `2^31` reads back, signed, as that number. -/
theorem toInt_ofNat_small {j : ℕ} (hj : j < 2147483648) : (BitVec.ofNat 32 j).toInt = (j : ℤ) := by
  rw [BitVec.toInt_eq_toNat_cond, BitVec.toNat_ofNat]
  have h32 : (2 : ℕ) ^ 32 = 4294967296 := by norm_num
  rw [h32, Nat.mod_eq_of_lt (by omega)]
  rw [if_pos (by omega)]

/-- Such a word is not negative. -/
theorem toInt_ofNat_small_nonneg {j : ℕ} (hj : j < 2147483648) : 0 ≤ (BitVec.ofNat 32 j).toInt := by
  rw [toInt_ofNat_small hj]; exact Int.natCast_nonneg j

/-- Among the words `0, 1, …` exactly the `g`-th names row `g`. -/
theorem toInt_ofNat_eq_iff {j g : ℕ} (hj : j < 2147483648) : (BitVec.ofNat 32 j).toInt = (g : ℤ) ↔ j = g := by
  rw [toInt_ofNat_small hj]; exact Int.natCast_inj

end Cert.Lib.SumSplit
-- ==== Proof.GcnBlocks.lean ====
/-
  The degree-normalised aggregation of a graph convolution over `n` edge entries, read index by index on the extended
  reals, for any `n` (the table has 100000 rows of 128 channels).

  An edge entry `e` carries two 32-bit words, a source `r e` and a target `c e`. A scatter-add lands entry `e` on
  the row its RAW target word names (a word outside `[0, 100000)` lands nowhere); a gather reads the row named by the
  word WRAPPED (a negative word has 100000 added) and then clamped into `[0, 99999]`. With `dis` a per-row factor:

    count c g        = 0 + ∑ over the entries e with target word g of 1
    msgs (e, f)      = h (src e, f) · (dis (src e) · dis (tgt e))
    agg (g, f)       = 0 + ∑ over the entries e with target word g of msgs (e, f)

  Each is read here at an index; the law that joins the two programs is stated over these readings.
-/
import proofs.«133080_j10007273799959_2_alg».proof.Proof.LibRowIndex
import proofs.«133080_j10007273799959_2_alg».proof.Proof.LibFlatGather
import proofs.«133080_j10007273799959_2_alg».proof.Proof.LibColumnBcast
import proofs.«133080_j10007273799959_2_alg».proof.Proof.LibBiasLayout
import proofs.«133080_j10007273799959_2_alg».proof.Proof.LibSumSplit
import Idealize.ShloMosaic.PureOps.Ideal
import Idealize.ShloMosaic.PureOps.Ideal.Laws
import Idealize.ShloMosaic.Lib.ValueIdx
import Idealize.ShloMosaic.Lib.Pipeline.Value

noncomputable section

namespace Cert.Gcn

open Idealize.ShloMosaic Idealize.ShloMosaic.ValueIdx Cert.RowIndex
open Cert.Lib.ColumnBcast Cert.Lib.BiasLayout Cert.Lib.SumSplit

abbrev T0 : Shape := ⟨0, ![]⟩
abbrev TR : Shape := ⟨1, ![100000]⟩
abbrev TR1 : Shape := ⟨2, ![100000, 1]⟩
abbrev TRC : Shape := ⟨2, ![100000, 128]⟩
abbrev TC : Shape := ⟨1, ![128]⟩
abbrev T1C : Shape := ⟨2, ![1, 128]⟩

/-- The layout side conditions that do not depend on the number of entries. -/
structure WitR : Prop where
  b0R : T0.BroadcastsInDim TR ![]
  b0RC : T0.BroadcastsInDim TRC ![]
  bR1 : TR.BroadcastsInDim TR1 ![0]
  bR1C : TR1.BroadcastsInDim TRC ![0, 1]
  bC1C : TC.BroadcastsInDim T1C ![1]
  b1CRC : T1C.BroadcastsInDim TRC ![0, 1]

/-- The side conditions of the operations over `n` entries. -/
structure Wit (n : ℕ) : Prop where
  b0n : T0.BroadcastsInDim ⟨1, ![n]⟩ ![]
  bn1 : (⟨1, ![n]⟩ : Shape).BroadcastsInDim ⟨2, ![n, 1]⟩ ![0]
  bn1C : (⟨2, ![n, 1]⟩ : Shape).BroadcastsInDim ⟨2, ![n, 128]⟩ ![0, 1]
  gflat : GatherDims.WF TR ⟨2, ![n, 1]⟩ ⟨1, ![n]⟩ [] [0] [] [0] [] 1 ![1]
  grow : GatherDims.WF TRC ⟨2, ![n, 1]⟩ ⟨2, ![n, 128]⟩ [1] [0] [] [0] [] 1 ![1, 128]
  sflat : ScatterDims.WF TR ⟨2, ![n, 1]⟩ ⟨1, ![n]⟩ [] [0] [0] 1
  srow : ScatterDims.WF TRC ⟨2, ![n, 1]⟩ ⟨2, ![n, 128]⟩ [1] [0] [0] 1

variable {n : ℕ}

/-! ## Index words -/

/-- A word as a gather reads it: a negative word has the number of rows added. -/
def wrapWord (b : BitVec 32) : BitVec 32 := Scalar.select (IntOp.cmpi .slt b 0#32) (IntOp.addi b 100000#32) b

/-- The row a word names for a gather. -/
def rowOf (b : BitVec 32) : Fin 100000 := clampRow 100000 (by norm_num) (wrapWord b)

/-- A word that is not negative is read as it is. -/
theorem wrapWord_of_nonneg (b : BitVec 32) (hb : 0 ≤ b.toInt) : wrapWord b = b := by
  unfold wrapWord Scalar.select IntOp.cmpi
  have hs : b.slt 0#32 = false := by
    unfold BitVec.slt
    exact decide_eq_false (by rw [BitVec.toInt_zero]; omega)
  rw [hs]
  rfl

/-- The word made from a row's number names that row, for the scatter and for the gather alike. -/
theorem rowOf_ofNat (g : Fin 100000) : rowOf (BitVec.ofNat 32 g.val) = g := by
  have hg : g.val < 2147483648 := by have := g.isLt; omega
  unfold rowOf
  rw [wrapWord_of_nonneg _ (toInt_ofNat_small_nonneg hg)]
  exact clampRow_of_eq _ _ g (toInt_ofNat_small hg)

/-- The words of the entries, wrapped for a gather. -/
def wrapW (w : Wit n) (v : IVec ⟨1, ![n]⟩ 32) : IVec ⟨1, ![n]⟩ 32 :=
  select (cmpi .slt v (broadcastInDim ⟨1, ![n]⟩ ![] w.b0n (constantI T0 32 0#32)))
    (addi v (broadcastInDim ⟨1, ![n]⟩ ![] w.b0n (constantI T0 32 100000#32))) v

theorem wrapW_apply (w : Wit n) (v : IVec ⟨1, ![n]⟩ 32) (e : Fin n) : wrapW w v (ix1 e) = wrapWord (v (ix1 e)) := by
  show Scalar.select (IntOp.cmpi .slt (v (ix1 e)) (broadcastInDim ⟨1, ![n]⟩ ![] w.b0n (constantI T0 32 0#32) (ix1 e)))
      (IntOp.addi (v (ix1 e)) (broadcastInDim ⟨1, ![n]⟩ ![] w.b0n (constantI T0 32 100000#32) (ix1 e))) (v (ix1 e)) = _
  rw [bcast_scalar_apply, bcast_scalar_apply]
  rfl

/-- A vector of `n` entries as an `[n, 1]` column (how an index vector is handed to a gather or a scatter). -/
def asCol {α : Type} (w : Wit n) (v : (⟨1, ![n]⟩ : Shape).Idx → α) : (⟨2, ![n, 1]⟩ : Shape).Idx → α :=
  broadcastInDim ⟨2, ![n, 1]⟩ ![0] w.bn1 v

theorem asCol_apply {α : Type} (w : Wit n) (v : (⟨1, ![n]⟩ : Shape).Idx → α) (e : Fin n) (u : Fin 1) :
    asCol w v (ix2 e u) = v (ix1 e) := bcast_vec_col_apply ![0] rfl w.bn1 v e u

/-! ## The count of entries per target row -/

def count (wr : WitR) (w : Wit n) (c : IVec ⟨1, ![n]⟩ 32) : FVec Ideal TR .f32 :=
  Host.scatterAdd (F := Ideal) (flatScatter 100000 n w.sflat)
    (broadcastInDim TR ![] wr.b0R (constant (F := Ideal) T0 .f32 0x00000000#32))
    (asCol w c)
    (broadcastInDim ⟨1, ![n]⟩ ![] w.b0n (constant (F := Ideal) T0 .f32 0x3F800000#32))

theorem count_apply (wr : WitR) (w : Wit n) (c : IVec ⟨1, ![n]⟩ 32) (g : Fin 100000) :
    count wr w c (ix1 g) = Ideal.ofBits .f32 0x00000000#32
      + ∑ e ∈ Finset.univ.filter (fun e : Fin n => (c (ix1 e)).toInt = (g.val : ℤ)), Ideal.ofBits .f32 0x3F800000#32 := by
  unfold count
  rw [flatScatterAdd_apply, bcast_scalar_apply]
  simp only [asCol_apply, bcast_scalar_apply]
  rfl

/-! ## The messages and their aggregate -/

/-- The per-entry factor: the row factor at the source times the row factor at the target. -/
def normOf (w : Wit n) (dis : FVec Ideal TR .f32) (r c : IVec ⟨1, ![n]⟩ 32) : FVec Ideal ⟨1, ![n]⟩ .f32 :=
  mulf (Host.gather (flatGather 100000 n w.gflat) dis (asCol w (wrapW w r)))
    (Host.gather (flatGather 100000 n w.gflat) dis (asCol w (wrapW w c)))

theorem normOf_apply (w : Wit n) (dis : FVec Ideal TR .f32) (r c : IVec ⟨1, ![n]⟩ 32) (e : Fin n) :
    normOf w dis r c (ix1 e) = dis (ix1 (rowOf (r (ix1 e)))) * dis (ix1 (rowOf (c (ix1 e)))) := by
  show Host.gather (flatGather 100000 n w.gflat) dis (asCol w (wrapW w r)) (ix1 e)
      * Host.gather (flatGather 100000 n w.gflat) dis (asCol w (wrapW w c)) (ix1 e) = _
  rw [flatGather_apply (by norm_num), flatGather_apply (by norm_num), asCol_apply, asCol_apply, wrapW_apply, wrapW_apply]
  rfl

/-- The message of each entry: the source row of the table times the entry's factor, channel by channel. -/
def msgs (w : Wit n) (h : FVec Ideal TRC .f32) (dis : FVec Ideal TR .f32) (r c : IVec ⟨1, ![n]⟩ 32) :
    FVec Ideal ⟨2, ![n, 128]⟩ .f32 :=
  mulf (Host.gather (rowGather 100000 128 n w.grow) h (asCol w (wrapW w r)))
    (broadcastInDim ⟨2, ![n, 128]⟩ ![0, 1] w.bn1C (broadcastInDim ⟨2, ![n, 1]⟩ ![0] w.bn1 (normOf w dis r c)))

theorem msgs_apply (w : Wit n) (h : FVec Ideal TRC .f32) (dis : FVec Ideal TR .f32) (r c : IVec ⟨1, ![n]⟩ 32)
    (e : Fin n) (f : Fin 128) :
    msgs w h dis r c (ix2 e f)
      = h (ix2 (rowOf (r (ix1 e))) f) * (dis (ix1 (rowOf (r (ix1 e)))) * dis (ix1 (rowOf (c (ix1 e))))) := by
  show Host.gather (rowGather 100000 128 n w.grow) h (asCol w (wrapW w r)) (ix2 e f)
      * broadcastInDim ⟨2, ![n, 128]⟩ ![0, 1] w.bn1C (broadcastInDim ⟨2, ![n, 1]⟩ ![0] w.bn1 (normOf w dis r c)) (ix2 e f) = _
  rw [rowGather_apply (by norm_num), asCol_apply, wrapW_apply, bcast_col_apply ![0, 1] rfl,
    bcast_vec_col_apply ![0] rfl, normOf_apply]
  rfl

/-- The messages summed into their target rows. -/
def agg (wr : WitR) (w : Wit n) (h : FVec Ideal TRC .f32) (dis : FVec Ideal TR .f32) (r c : IVec ⟨1, ![n]⟩ 32) :
    FVec Ideal TRC .f32 :=
  Host.scatterAdd (F := Ideal) (rowScatter 100000 128 n w.srow)
    (broadcastInDim TRC ![] wr.b0RC (constant (F := Ideal) T0 .f32 0x00000000#32)) (asCol w c) (msgs w h dis r c)

theorem agg_apply (wr : WitR) (w : Wit n) (h : FVec Ideal TRC .f32) (dis : FVec Ideal TR .f32) (r c : IVec ⟨1, ![n]⟩ 32)
    (g : Fin 100000) (f : Fin 128) :
    agg wr w h dis r c (ix2 g f) = Ideal.ofBits .f32 0x00000000#32
      + ∑ e ∈ Finset.univ.filter (fun e : Fin n => (c (ix1 e)).toInt = (g.val : ℤ)),
          h (ix2 (rowOf (r (ix1 e))) f) * (dis (ix1 (rowOf (r (ix1 e)))) * dis (ix1 (rowOf (c (ix1 e))))) := by
  unfold agg
  rw [rowScatterAdd_apply, bcast_scalar_apply]
  simp only [asCol_apply, msgs_apply]
  rfl

/-! ## The dense self term, the row factor, the epilogue -/

/-- Each row of the table times the square of its row factor. -/
def selfTerm (wr : WitR) (h : FVec Ideal TRC .f32) (dis : FVec Ideal TR .f32) : FVec Ideal TRC .f32 :=
  mulf h (broadcastInDim TRC ![0, 1] wr.bR1C (broadcastInDim TR1 ![0] wr.bR1 (mulf dis dis)))

theorem selfTerm_apply (wr : WitR) (h : FVec Ideal TRC .f32) (dis : FVec Ideal TR .f32) (g : Fin 100000) (f : Fin 128) :
    selfTerm wr h dis (ix2 g f) = h (ix2 g f) * (dis (ix1 g) * dis (ix1 g)) := by
  show h (ix2 g f) * broadcastInDim TRC ![0, 1] wr.bR1C (broadcastInDim TR1 ![0] wr.bR1 (mulf dis dis)) (ix2 g f) = _
  rw [bcast_col_apply ![0, 1] rfl, bcast_vec_col_apply ![0] rfl]
  rfl

/-- The row factor from the degree: its reciprocal square root where the degree is positive, zero elsewhere. -/
def disOf (wr : WitR) (deg : FVec Ideal TR .f32) : FVec Ideal TR .f32 :=
  select (cmpf .ogt deg (broadcastInDim TR ![] wr.b0R (constant (F := Ideal) T0 .f32 0x00000000#32))) (Host.rsqrt deg)
    (broadcastInDim TR ![] wr.b0R (id (constant (F := Ideal) T0 .f32 0x00000000#32)))

/-- The bias added, then the per-channel slope on the entries that are not positive. -/
def epilogue (wr : WitR) (out : FVec Ideal TRC .f32) (b a : FVec Ideal TC .f32) : FVec Ideal TRC .f32 :=
  select
    (cmpf .ogt (addf out (broadcastInDim TRC ![0, 1] wr.b1CRC (broadcastInDim T1C ![1] wr.bC1C b)))
      (broadcastInDim TRC ![] wr.b0RC (constant (F := Ideal) T0 .f32 0x00000000#32)))
    (addf out (broadcastInDim TRC ![0, 1] wr.b1CRC (broadcastInDim T1C ![1] wr.bC1C b)))
    (mulf (broadcastInDim TRC ![0, 1] wr.b1CRC (broadcastInDim T1C ![1] wr.bC1C a))
      (addf out (broadcastInDim TRC ![0, 1] wr.b1CRC (broadcastInDim T1C ![1] wr.bC1C b))))

end Cert.Gcn

end
-- ==== Proof.GcnLaw.lean ====
/-
  THE LAW that joins the two programs: when the `n₁ + 100000` edge entries are `n₁` entries followed by one
  self-entry per row — source and target word both the row's number — the count per target row is the count over the
  first `n₁` entries plus one, and the aggregate is the aggregate over the first `n₁` entries plus the row's own
  term `h (g, f) · (dis g · dis g)`. A filtered sum over the longer list splits into the filtered sum over the head
  and the one over the tail, and among the self-entries exactly one lands on a given row. Only the
  commutative-monoid laws of the sum are used: no entry need be finite. So the result computed densely over the first
  `n₁` entries (`outDense`) and the one computed over all the entries (`outAppended`) are one function, for any number
  of entries.
-/
import proofs.«133080_j10007273799959_2_alg».proof.Proof.GcnBlocks

noncomputable section

namespace Cert.Gcn

open Idealize.ShloMosaic Idealize.ShloMosaic.ValueIdx Cert.RowIndex
open Cert.Lib.ColumnBcast Cert.Lib.BiasLayout Cert.Lib.SumSplit

/-! ## The law: self-entries appended to the edge list -/

section Tail

variable {n₁ N : ℕ} (hN : n₁ + 100000 = N)
  (r c : IVec ⟨1, ![n₁]⟩ 32) (r' c' : IVec ⟨1, ![N]⟩ 32)

/-- The longer list `v'` is the shorter list `v` followed by one self-entry per row, in order. -/
structure Extends (v : IVec ⟨1, ![n₁]⟩ 32) (v' : IVec ⟨1, ![N]⟩ 32) : Prop where
  head : ∀ e : Fin n₁, v' (ix1 (Fin.cast hN (Fin.castAdd 100000 e))) = v (ix1 e)
  tail : ∀ j : Fin 100000, v' (ix1 (Fin.cast hN (Fin.natAdd n₁ j))) = BitVec.ofNat 32 j.val

/-- A self-entry lands on row `g` exactly when it is row `g`'s. -/
theorem self_hits_iff (j g : Fin 100000) : (BitVec.ofNat 32 j.val).toInt = (g.val : ℤ) ↔ j = g := by
  have hj : j.val < 2147483648 := by have := j.isLt; omega
  rw [toInt_ofNat_eq_iff hj]
  exact Fin.val_inj

/-- The count with the self-entries appended is the count without them, plus one. -/
theorem count_tail (wr : WitR) (w₁ : Wit n₁) (w : Wit N) (hc : Extends hN c c') (g : Fin 100000) :
    count wr w c' (ix1 g) = count wr w₁ c (ix1 g) + Ideal.ofBits .f32 0x3F800000#32 := by
  rw [count_apply, count_apply, sum_filter_split hN]
  simp only [hc.head, hc.tail]
  rw [sum_filter_unique (fun j : Fin 100000 => (BitVec.ofNat 32 j.val).toInt = (g.val : ℤ)) g (fun j => self_hits_iff j g)]
  rw [add_assoc]

/-- The aggregate with the self-entries appended is the aggregate without them, plus the row's own term. -/
theorem agg_tail (wr : WitR) (w₁ : Wit n₁) (w : Wit N) (h : FVec Ideal TRC .f32) (dis : FVec Ideal TR .f32)
    (hr : Extends hN r r') (hc : Extends hN c c') (g : Fin 100000) (f : Fin 128) :
    agg wr w h dis r' c' (ix2 g f) = agg wr w₁ h dis r c (ix2 g f) + selfTerm wr h dis (ix2 g f) := by
  rw [agg_apply, agg_apply, selfTerm_apply, sum_filter_split hN]
  simp only [hc.head, hc.tail, hr.head, hr.tail]
  rw [sum_filter_unique (fun j : Fin 100000 => (BitVec.ofNat 32 j.val).toInt = (g.val : ℤ)) g (fun j => self_hits_iff j g)
    (fun j : Fin 100000 => h (ix2 (rowOf (BitVec.ofNat 32 j.val)) f)
      * (dis (ix1 (rowOf (BitVec.ofNat 32 j.val))) * dis (ix1 (rowOf (BitVec.ofNat 32 j.val)))))]
  rw [rowOf_ofNat, add_assoc]

/-- The counts, as arrays: the self-entries add one to every row's count. -/
theorem count_tail_fn (wr : WitR) (w₁ : Wit n₁) (w : Wit N) (hc : Extends hN c c') :
    addf (count wr w₁ c) (broadcastInDim TR ![] wr.b0R (constant (F := Ideal) T0 .f32 0x3F800000#32)) = count wr w c' := by
  funext i
  obtain ⟨g, rfl⟩ : ∃ g : Fin 100000, i = ix1 g := ⟨i 0, eq_ix1 i⟩
  rw [count_tail hN c c' wr w₁ w hc g]
  show count wr w₁ c (ix1 g) + broadcastInDim TR ![] wr.b0R (constant (F := Ideal) T0 .f32 0x3F800000#32) (ix1 g) = _
  rw [bcast_scalar_apply]
  rfl

/-- The aggregates, as arrays: the self-entries add every row's own term. -/
theorem agg_tail_fn (wr : WitR) (w₁ : Wit n₁) (w : Wit N) (h : FVec Ideal TRC .f32) (dis : FVec Ideal TR .f32)
    (hr : Extends hN r r') (hc : Extends hN c c') :
    addf (agg wr w₁ h dis r c) (selfTerm wr h dis) = agg wr w h dis r' c' := by
  funext i
  obtain ⟨g, f, rfl⟩ : ∃ (g : Fin 100000) (f : Fin 128), i = ix2 g f := ⟨i 0, i 1, eq_ix2 i⟩
  show agg wr w₁ h dis r c (ix2 g f) + selfTerm wr h dis (ix2 g f) = _
  exact (agg_tail hN r c r' c' wr w₁ w h dis hr hc g f).symm

/-- The result computed over the first `n₁` entries with the self loops folded in: one added to every degree, every
    row's own term added to the aggregate. -/
def outDense (wr : WitR) (w₁ : Wit n₁) (h : FVec Ideal TRC .f32) (r c : IVec ⟨1, ![n₁]⟩ 32)
    (b a : FVec Ideal TC .f32) : FVec Ideal TRC .f32 :=
  epilogue wr
    (addf
      (agg wr w₁ h
        (disOf wr (addf (count wr w₁ c) (broadcastInDim TR ![] wr.b0R (constant (F := Ideal) T0 .f32 0x3F800000#32)))) r c)
      (selfTerm wr h
        (disOf wr (addf (count wr w₁ c) (broadcastInDim TR ![] wr.b0R (constant (F := Ideal) T0 .f32 0x3F800000#32))))))
    b a

/-- The result computed over all the entries, the self-entries among them. -/
def outAppended (wr : WitR) (w : Wit N) (h : FVec Ideal TRC .f32) (r' c' : IVec ⟨1, ![N]⟩ 32)
    (b a : FVec Ideal TC .f32) : FVec Ideal TRC .f32 :=
  epilogue wr (agg wr w h (disOf wr (count wr w c')) r' c') b a

/-- THE TWO ARE ONE FUNCTION when the longer lists are the shorter ones with the self-entries appended. -/
theorem outDense_eq_outAppended (wr : WitR) (w₁ : Wit n₁) (w : Wit N) (h : FVec Ideal TRC .f32)
    (hr : Extends hN r r') (hc : Extends hN c c') (b a : FVec Ideal TC .f32) :
    outDense wr w₁ h r c b a = outAppended wr w h r' c' b a := by
  unfold outDense outAppended
  rw [count_tail_fn hN c c' wr w₁ w hc, agg_tail_fn hN r c r' c' wr w₁ w h _ hr hc]

end Tail

end Cert.Gcn

end
-- ==== Proof.LibTypedRefs.lean ====
/-
  Typed references: contents moved to the buffer's own type and back.

  An operation of an outlined function reads and writes its buffers through references that carry the tensor type of
  the value they hold; contents cross between that type and the buffer's own type along the equation of the two
  types. Moving a value to the buffer's type and straight back gives the value, for ANY typed reference — the fact
  is about the reference as a variable, so using it never asks Lean to compare two buffer types.
-/
import Idealize.ShloMosaic.Lib.StableHlo

namespace Cert.Lib.TypedRefs

open Idealize.ShloMosaic Idealize.ShloMosaic.StableHlo

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.Lib.TypedRefs
-- ==== Proof.LibAfterAppend.lean ====
/-
  The contents after two stretches of host operations run one after the other.

  The contents of a device's buffers after a list of host operations is a fold of the operations over the contents
  before. The fold over a concatenation is the fold over the second list started from the fold over the first. So a long
  stretch can be described stage by stage: each stage as a statement about an arbitrary starting valuation of which
  only the few buffers the stage reads are known, and the stages composed by this equation.
-/
import Idealize.ShloMosaic.Lib.StableHlo.Run

namespace Cert.Lib.AfterAppend

open Idealize.ShloMosaic Idealize.ShloMosaic.StableHlo

variable {τ : Topo} {sig : RefSig} {Val : EltTy → Type}

/-- The fold over a concatenation is the fold over the second list from the fold over the first. -/
theorem after_append (l₁ l₂ : List (HloOp τ sig Val)) (W : Valuation τ sig Val) :
    after (l₁ ++ l₂) W = after l₂ (after l₁ W) := by
  induction l₁ generalizing W with
  | nil => rfl
  | cons op l ih => simp only [List.cons_append, after_cons, ih]

end Cert.Lib.AfterAppend
-- ==== Proof.KernelIdealTail.lean ====
/-
  What the seventy-three host operations after the region compute, at the ideal values, from the product array and
  the arguments: the dense form of the graph convolution (`Cert.Gcn.outDense`) — the target words counted into
  the degrees plus one, the row factors, the messages over the 1,600,000 edges summed into their target rows plus the
  rows' own terms, the bias and the per-channel slope. The two words of an edge are rows 0 and 1 of the index array.

  The operations come in four stretches (the second and the fourth are the two outlined selections). Each stretch is
  read back from ANY contents of the buffers it reads, so that what one stretch computes stays a name while the next
  is read; the four readings are then composed.
-/
import proofs.«133080_j10007273799959_2_alg».proof.Proof.KernelIdealAround
import proofs.«133080_j10007273799959_2_alg».proof.Proof.GcnLaw
import proofs.«133080_j10007273799959_2_alg».proof.Proof.LibTypedRefs
import proofs.«133080_j10007273799959_2_alg».proof.Proof.LibAfterAppend
import Idealize.ShloMosaic.Lib.StableHlo.Run

set_option maxRecDepth 65536

noncomputable section

namespace Cert.KernelIdeal.Tail

open Cert.KernelIdeal Cert.KernelIdeal.Gen Cert.KernelIdeal.Around Cert.Gcn
open Idealize.ShloMosaic Idealize.ShloMosaic.TcCoe Idealize.SL.Sem Idealize.ShloMosaic.StableHlo

/-- The layout side conditions, from the program's facts. -/
theorem witR : WitR :=
  ⟨bcast_S_S100000, bcast_S_S100000x128, bcast_S100000_S100000x1_0, bcast_S100000x1_S100000x128_0_1,
    bcast_S128_S1x128_1, bcast_S1x128_S100000x128_0_1⟩

theorem wit : Wit 1600000 :=
  ⟨bcast_S_S1600000, bcast_S1600000_S1600000x1_0, bcast_S1600000x1_S1600000x128_0_1,
    gather_S100000_S1600000x1_S1600000_n_0_n_n_0_1_1_wf, gather_S100000x128_S1600000x1_S1600000x128_1_0_n_n_0_1_1128_wf,
    scatter_S100000_S1600000x1_S1600000_n_0_0_1_wf, scatter_S100000x128_S1600000x1_S1600000x128_1_0_0_1_wf⟩

/-- The source words: row 0 of the index array. -/
def rowW (ei : (⟨S2x1600000, .i32⟩ : BufTy).Contents (Elt Ideal)) : IVec ⟨1, ![1600000]⟩ 32 :=
  shapeCast S1600000 (extractStridedSlice S1x1600000 ![0, 0] ei slices_S2x1600000_S1x1600000_0_0) shapeCasts_S1x1600000_S1600000

/-- The target words: row 1 of the index array. -/
def colW (ei : (⟨S2x1600000, .i32⟩ : BufTy).Contents (Elt Ideal)) : IVec ⟨1, ![1600000]⟩ 32 :=
  shapeCast S1600000 (extractStridedSlice S1x1600000 ![1, 0] ei slices_S2x1600000_S1x1600000_1_0) shapeCasts_S1x1600000_S1600000

/-- Widening a bf16 array to f32 is the identity on extended reals. -/
theorem extf_ideal {s : Shape} (x : FVec Ideal s .bf16) (h : FTy.bits .bf16 < FTy.bits .f32) :
    extf (F := Ideal) .f32 x h = x := rfl

/-- The later operations, one stretch after the other. -/
theorem tail_flat : (tail : List (List (HloOp τ sig (Elt Ideal)))).flatten
    = hostOps1 ++ (hostOps1_1 ++ (hostOps1_2 ++ hostOps1_3)) := by
  simp only [tail, List.flatten_cons, List.flatten_nil, List.append_nil]

variable (V : Valuation τ sig (Elt Ideal))

/-! ## The buffers no stretch writes -/

theorem kept1 {b : Ref sig .tc} (hb : Kept b) : StableHlo.after (hostOps1 (F := Ideal)) V (Proc.devRef .tc b) = V (Proc.devRef .tc b) :=
  StableHlo.after_of_forall_not_mem _ V fun op hop => (List.forall_iff_forall_mem.mp keeps1) op hop b hb
theorem kept1_1 {b : Ref sig .tc} (hb : Kept b) : StableHlo.after (hostOps1_1 (F := Ideal)) V (Proc.devRef .tc b) = V (Proc.devRef .tc b) :=
  StableHlo.after_of_forall_not_mem _ V fun op hop => (List.forall_iff_forall_mem.mp keeps1_1) op hop b hb

theorem kept_v0 : Kept main_v0 := .inr (.inr (.inr (.inr (.inr rfl))))
theorem kept_arg3 : Kept main_arg3 := .inr (.inr (.inr (.inl rfl)))
theorem kept_arg4 : Kept main_arg4 := .inr (.inr (.inr (.inr (.inl rfl))))

/-! ## The first stretch: the edge words, the degrees -/

set_option maxHeartbeats 4000000 in
theorem a_v2 : StableHlo.after (hostOps1 (F := Ideal)) V (Proc.devRef .tc main_v2) = rowW (V (Proc.devRef .tc main_arg1)) := by
  after_results_simp
  rfl
set_option maxHeartbeats 4000000 in
theorem a_v4 : StableHlo.after (hostOps1 (F := Ideal)) V (Proc.devRef .tc main_v4) = colW (V (Proc.devRef .tc main_arg1)) := by
  after_results_simp
  rfl
set_option maxHeartbeats 4000000 in
theorem a_v12 : StableHlo.after (hostOps1 (F := Ideal)) V (Proc.devRef .tc main_v12)
    = cmpf .ogt (addf (Cert.Gcn.count witR wit (colW (V (Proc.devRef .tc main_arg1)))) (broadcastInDim TR ![] witR.b0R (constant (F := Ideal) T0 .f32 0x3F800000#32))) (broadcastInDim TR ![] witR.b0R (constant (F := Ideal) T0 .f32 0x00000000#32)) := by
  after_results_simp
  rfl
set_option maxHeartbeats 4000000 in
theorem a_v13 : StableHlo.after (hostOps1 (F := Ideal)) V (Proc.devRef .tc main_v13) = Host.rsqrt (addf (Cert.Gcn.count witR wit (colW (V (Proc.devRef .tc main_arg1)))) (broadcastInDim TR ![] witR.b0R (constant (F := Ideal) T0 .f32 0x3F800000#32))) := by
  after_results_simp
  rfl
set_option maxHeartbeats 4000000 in
theorem a_cst3 : StableHlo.after (hostOps1 (F := Ideal)) V (Proc.devRef .tc main_cst_3) = constant (F := Ideal) T0 .f32 0x00000000#32 := by
  after_results_simp

/-! ## The second stretch: the row factor selected -/

theorem b_v14 : StableHlo.after (hostOps1_1 (F := Ideal)) V (Proc.devRef .tc main_v14)
    = select (V (Proc.devRef .tc main_v12)) (V (Proc.devRef .tc main_v13)) (broadcastInDim TR ![] witR.b0R (id (V (Proc.devRef .tc main_cst_3)))) := by
  after_results_simp
  rfl
theorem b_v2 : StableHlo.after (hostOps1_1 (F := Ideal)) V (Proc.devRef .tc main_v2) = (V (Proc.devRef .tc main_v2)) := by
  after_results_simp
theorem b_v4 : StableHlo.after (hostOps1_1 (F := Ideal)) V (Proc.devRef .tc main_v4) = (V (Proc.devRef .tc main_v4)) := by
  after_results_simp

/-! ## The third stretch: the messages, their aggregate, the rows' own terms, the bias -/

set_option maxHeartbeats 40000000 in
theorem c_v52 : StableHlo.after (hostOps1_2 (F := Ideal)) V (Proc.devRef .tc main_v52) = (addf (addf (agg witR wit (V (Proc.devRef .tc main_v0)) (V (Proc.devRef .tc main_v14)) (V (Proc.devRef .tc main_v2)) (V (Proc.devRef .tc main_v4)))
          (selfTerm witR (V (Proc.devRef .tc main_v0)) (V (Proc.devRef .tc main_v14))))
        (broadcastInDim TRC ![0, 1] witR.b1CRC (broadcastInDim T1C ![1] witR.bC1C (V (Proc.devRef .tc main_arg3))))) := by
  after_results_simp
  simp only [extf_ideal]
  rfl
set_option maxHeartbeats 40000000 in
theorem c_v54 : StableHlo.after (hostOps1_2 (F := Ideal)) V (Proc.devRef .tc main_v54)
    = cmpf .ogt (addf (addf (agg witR wit (V (Proc.devRef .tc main_v0)) (V (Proc.devRef .tc main_v14)) (V (Proc.devRef .tc main_v2)) (V (Proc.devRef .tc main_v4)))
          (selfTerm witR (V (Proc.devRef .tc main_v0)) (V (Proc.devRef .tc main_v14))))
        (broadcastInDim TRC ![0, 1] witR.b1CRC (broadcastInDim T1C ![1] witR.bC1C (V (Proc.devRef .tc main_arg3))))) (broadcastInDim TRC ![] witR.b0RC (constant (F := Ideal) T0 .f32 0x00000000#32)) := by
  after_results_simp
  simp only [extf_ideal]
  rfl
set_option maxHeartbeats 40000000 in
theorem c_v57 : StableHlo.after (hostOps1_2 (F := Ideal)) V (Proc.devRef .tc main_v57)
    = mulf (broadcastInDim TRC ![0, 1] witR.b1CRC (broadcastInDim T1C ![1] witR.bC1C (V (Proc.devRef .tc main_arg4)))) (addf (addf (agg witR wit (V (Proc.devRef .tc main_v0)) (V (Proc.devRef .tc main_v14)) (V (Proc.devRef .tc main_v2)) (V (Proc.devRef .tc main_v4)))
          (selfTerm witR (V (Proc.devRef .tc main_v0)) (V (Proc.devRef .tc main_v14))))
        (broadcastInDim TRC ![0, 1] witR.b1CRC (broadcastInDim T1C ![1] witR.bC1C (V (Proc.devRef .tc main_arg3))))) := by
  after_results_simp
  simp only [extf_ideal]
  rfl

/-! ## The fourth stretch: the slope selected -/

theorem d_v58 : StableHlo.after (hostOps1_3 (F := Ideal)) V (Proc.devRef .tc main_v58)
    = select (V (Proc.devRef .tc main_v54)) (V (Proc.devRef .tc main_v52)) (V (Proc.devRef .tc main_v57)) := by
  after_results_simp
  rfl

/-! ## The four composed -/

set_option maxHeartbeats 4000000 in
/-- The result buffer after the later operations, from any contents of the buffers they read. -/
theorem tail_result (W : Valuation τ sig (Elt Ideal)) :
    StableHlo.after (tail : List (List (HloOp τ sig (Elt Ideal)))).flatten W (Proc.devRef .tc main_v58)
      = outDense witR wit (W (Proc.devRef .tc main_v0)) (rowW (W (Proc.devRef .tc main_arg1))) (colW (W (Proc.devRef .tc main_arg1)))
          (W (Proc.devRef .tc main_arg3)) (W (Proc.devRef .tc main_arg4)) := by
  rw [tail_flat, Cert.Lib.AfterAppend.after_append, Cert.Lib.AfterAppend.after_append, Cert.Lib.AfterAppend.after_append]
  rw [d_v58, c_v54, c_v52, c_v57]
  rw [b_v14, b_v2, b_v4, kept1_1 _ kept_v0, kept1_1 _ kept_arg3, kept1_1 _ kept_arg4]
  rw [a_v12, a_v13, a_cst3, a_v2, a_v4, kept1 _ kept_v0, kept1 _ kept_arg3, kept1 _ kept_arg4]
  rfl

end Cert.KernelIdeal.Tail

end
-- ==== Proof.KernelIdealResult.lean ====
/-
  The idealized kernel's run with its result named: every weakly fair execution of @main terminates with the result
  buffer at the dense form of the graph convolution of the product `x · W`, the edge words, the bias and the slope,
  and the five argument arrays as launched. The product array is what the region leaves (the blocks written back
  tile it); the later host operations read it, the index array, the bias and the slope, none of which they write.
-/
import proofs.«133080_j10007273799959_2_alg».proof.Proof.KernelIdealProduct
import proofs.«133080_j10007273799959_2_alg».proof.Proof.KernelIdealTail

noncomputable section

namespace Cert.KernelIdeal.Result

open Cert.KernelIdeal Cert.KernelIdeal.Gen Cert.KernelIdeal.Around Cert.Gcn
open Idealize.ShloMosaic Idealize.ShloMosaic.TcCoe
open Idealize.SL Idealize.SL.Sem

variable (m : (ℓ : Loc nD τ sig) → Buf (Elt Ideal) ℓ) (ρ : Dev nD → PrngReg)

/-- The result array as one function of the argument arrays. -/
def G (x0 : FVec Ideal S100000x256 .f32) (x1 : (⟨S2x1600000, .i32⟩ : BufTy).Contents (Elt Ideal))
    (x2 : FVec Ideal S256x128 .f32) (x3 x4 : FVec Ideal S128 .f32) : FVec Ideal TRC .f32 :=
  outDense Tail.witR Tail.wit (Product.H x0 x2) (Tail.rowW x1) (Tail.colW x1) x3 x4

/-- The result buffer after the later operations, from the launch contents. -/
theorem result_eq (c : Dev nD) :
    Pipeline.afterTail₀ cfgs (dats m) 0 (V0 m) tail c main_v58
      = G (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  rw [Tail.tail_result]
  have h0 : Pipeline.withArrays (cfgs 0).spec c (V0 m c) (fun w => (dats m 0 c).arrAt w (cfgs 0).N) (Proc.devRef .tc main_v0)
      = Product.H (m ((c : Thread nD τ).loc main_arg0)) (m ((c : Thread nD τ).loc main_arg2)) :=
    (Pipeline.withArrays_arr spec0 launch0.win.arr_inj c _ _ 2).trans (Product.final m c)
  have h1 : Pipeline.withArrays (cfgs 0).spec c (V0 m c) (fun w => (dats m 0 c).arrAt w (cfgs 0).N) (Proc.devRef .tc main_arg1)
      = m ((c : Thread nD τ).loc main_arg1) :=
    Pipeline.withArrays_of_ne _ c (V0 m c) _ main_arg1 (by decide)
  have h3 : Pipeline.withArrays (cfgs 0).spec c (V0 m c) (fun w => (dats m 0 c).arrAt w (cfgs 0).N) (Proc.devRef .tc main_arg3)
      = m ((c : Thread nD τ).loc main_arg3) :=
    Pipeline.withArrays_of_ne _ c (V0 m c) _ main_arg3 (by decide)
  have h4 : Pipeline.withArrays (cfgs 0).spec c (V0 m c) (fun w => (dats m 0 c).arrAt w (cfgs 0).N) (Proc.devRef .tc main_arg4)
      = m ((c : Thread nD τ).loc main_arg4) :=
    Pipeline.withArrays_of_ne _ c (V0 m c) _ main_arg4 (by decide)
  rw [h0, h1, h3, h4]
  rfl

/-- THE RUN, read: the result at `G` of the arguments, the arguments unchanged. -/
theorem run : θ_run defs (onTc (τ := τ) (main (F := Ideal))) ⟨m, fun _ => 0, ρ⟩ (fun r => ∀ c : Dev nD,
      r.2.mem ((c.tc : Thread nD τ).loc main_v58)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v58 (Pipeline.mem_restRefs_of main_v58 (by decide) (by decide))).trans (result_eq m c),
      post_args m r h c⟩) (run_main m ρ)

end Cert.KernelIdeal.Result

end
-- ==== Proof.RefValue.lean ====
/-
  The reference's result, at the ideal values, is the appended form of the graph convolution
  (`Cert.Gcn.outAppended`): the index lists are the 1,600,000 edge words of each row of the index array followed by
  the row numbers 0 … 99999 (the self loops), the table is the product `x · W`, whose entry `(i, f)` is the sum over
  the inner axis of `x (i, k) · W (k, f)`.
-/
import proofs.«133080_j10007273799959_2_alg».proof.Proof.RefRunP
import proofs.«133080_j10007273799959_2_alg».proof.Proof.GcnLaw
import proofs.«133080_j10007273799959_2_alg».proof.Proof.LibPlainDot
import Idealize.ShloMosaic.Lib.Pipeline.Value

noncomputable section

namespace Cert.ReferenceIdeal.Appended

open Cert.ReferenceIdeal Cert.ReferenceIdeal.Gen Cert.Gcn
open Idealize.ShloMosaic Idealize.ShloMosaic.TcCoe Idealize.ShloMosaic.ValueIdx Idealize.SL.Sem

/-- The layout side conditions (two of them are of no operation of this program: they are decided here). -/
theorem witR : WitR :=
  ⟨bcast_S_S100000, bcast_S_S100000x128, by decide, by decide, bcast_S128_S1x128_1, bcast_S1x128_S100000x128_0_1⟩

theorem wit : Wit 1700000 :=
  ⟨bcast_S_S1700000, bcast_S1700000_S1700000x1_0, bcast_S1700000x1_S1700000x128_0_1,
    gather_S100000_S1700000x1_S1700000_n_0_n_n_0_1_1_wf, gather_S100000x128_S1700000x1_S1700000x128_1_0_n_n_0_1_1128_wf,
    scatter_S100000_S1700000x1_S1700000_n_0_0_1_wf, scatter_S100000x128_S1700000x1_S1700000x128_1_0_0_1_wf⟩

/-- The source words: row 0 of the index array. -/
def rowW (ei : (⟨S2x1600000, .i32⟩ : BufTy).Contents (Elt Ideal)) : IVec ⟨1, ![1600000]⟩ 32 :=
  shapeCast S1600000 (extractStridedSlice S1x1600000 ![0, 0] ei slices_S2x1600000_S1x1600000_0_0) shapeCasts_S1x1600000_S1600000

/-- The target words: row 1 of the index array. -/
def colW (ei : (⟨S2x1600000, .i32⟩ : BufTy).Contents (Elt Ideal)) : IVec ⟨1, ![1600000]⟩ 32 :=
  shapeCast S1600000 (extractStridedSlice S1x1600000 ![1, 0] ei slices_S2x1600000_S1x1600000_1_0) shapeCasts_S1x1600000_S1600000

/-- A list of edge words with the row numbers 0 … 99999 laid behind it. -/
def withSelf (v : IVec ⟨1, ![1600000]⟩ 32) : IVec ⟨1, ![1700000]⟩ 32 :=
  concatenate S1700000 0 [⟨S1600000, v⟩, ⟨S100000, iotaInDim S100000 32 0⟩] concatenates_S1600000_S100000_S1700000_d0

/-- It is the edge words followed by one self-entry per row. -/
theorem withSelf_extends (v : IVec ⟨1, ![1600000]⟩ 32) :
    Extends (by norm_num : 1600000 + 100000 = 1700000) v (withSelf v) where
  head := fun e =>
    concatenate_pair_apply_left (t := S1700000) (s₁ := S1600000) (s₂ := S100000) 0 v (iotaInDim S100000 32 0)
      concatenates_S1600000_S100000_S1700000_d0 _ rfl (ix1 e) (fun b => by match b with | ⟨0, _⟩ => rfl)
  tail := fun j =>
    (concatenate_pair_apply_right (t := S1700000) (s₁ := S1600000) (s₂ := S100000) 0 v (iotaInDim S100000 32 0)
      concatenates_S1600000_S100000_S1700000_d0 _ rfl rfl (ix1 j)
      (fun b hb => absurd (Fin.ext (by have h1 : b.val < 1 := b.isLt; show b.val = 0; omega)) hb)
      (by show j.val + 1600000 = 1600000 + j.val; omega)).trans rfl

/-- The product's dimension record reads its operands as rows by inner, inner by columns. -/
theorem reads_dot : Cert.Lib.PlainDot.Reads (R := 100000) (K := 256) (C := 128) dot_S100000x256_S256x128_S100000x128_1_0_0_1_n_n where
  rank := rfl
  size := rfl
  lhs0 := fun i q => by
    unfold DotDims.lhsIdx
    rw [dif_neg (show ¬(0 : Fin S100000x256.rank) ∈ dot_S100000x256_S256x128_S100000x128_1_0_0_1_n_n.lhsBatch by decide),
      dif_pos (show (0 : Fin S100000x256.rank) ∈ dot_S100000x256_S256x128_S100000x128_1_0_0_1_n_n.lhsNonContracting by decide)]
    rfl
  lhs1 := fun i q => dot_S100000x256_S256x128_S100000x128_1_0_0_1_n_n.lhsIdx_val_of_single rfl i q
  rhs0 := fun i q => dot_S100000x256_S256x128_S100000x128_1_0_0_1_n_n.rhsIdx_val_of_single rfl i q
  rhs1 := fun i q => by
    unfold DotDims.rhsIdx
    rw [dif_neg (show ¬(1 : Fin S256x128.rank) ∈ dot_S100000x256_S256x128_S100000x128_1_0_0_1_n_n.rhsBatch by decide),
      dif_pos (show (1 : Fin S256x128.rank) ∈ dot_S100000x256_S256x128_S100000x128_1_0_0_1_n_n.rhsNonContracting by decide)]
    rfl

/-- The host's product at `(a, b)`: the sum over the inner axis. -/
theorem dot_apply (x : FVec Ideal S100000x256 .f32) (w : FVec Ideal S256x128 .f32) (a : Fin 100000) (b : Fin 128) :
    Host.dotGeneral (F := Ideal) dot_S100000x256_S256x128_S100000x128_1_0_0_1_n_n none x w (ix2 a b)
      = ∑ k : Fin 256, x (ix2 a k) * w (ix2 k b) :=
  Cert.Lib.PlainDot.dotGeneral_apply reads_dot none _ x w a b

set_option maxRecDepth 8192 in
set_option maxHeartbeats 4000000 in
/-- The run's result term is the appended form of the product table, the index lists with the self-entries, the bias
    and the slope. -/
theorem res_eq (m : (ℓ : Loc nD τ sig) → Buf (Elt Ideal) ℓ) (c : Dev nD) :
    Cert.ReferenceIdeal.ValueP.res_main_v52 (F := Ideal) m c
      = outAppended witR wit
          (Host.dotGeneral (F := Ideal) (φ₁ := .f32) (φ₂ := .f32) dot_S100000x256_S256x128_S100000x128_1_0_0_1_n_n none
            (m ((c.tc : Thread nD τ).loc main_arg0)) (m ((c.tc : Thread nD τ).loc main_arg2)))
          (withSelf (rowW (m ((c.tc : Thread nD τ).loc main_arg1)))) (withSelf (colW (m ((c.tc : Thread nD τ).loc main_arg1))))
          (m ((c.tc : Thread nD τ).loc main_arg3)) (m ((c.tc : Thread nD τ).loc main_arg4)) := by
  unfold Cert.ReferenceIdeal.ValueP.res_main_v52
  rfl

end Cert.ReferenceIdeal.Appended

end
-- ==== Proof.lean ====
/-
  A graph convolution layer — `h = x · W`, self loops added, messages `h[src] · dis[src] · dis[tgt]` summed into
  their target rows with `dis = deg^(-1/2)` of the in-degree counted with the self loop, a bias, a per-channel slope
  on the entries that are not positive — computed two ways.

  The kernel multiplies `x · W` on the matrix unit, 4000 rows per grid point, and its host code folds the self loops
  in: one is added to every degree, and every row's own term `h[i] · dis[i]²` is added to the aggregate over the
  1,600,000 edges. The reference appends the row numbers 0 … 99999 to both edge-word lists and runs the count and the
  aggregate over all 1,700,000 entries. On the extended reals the two agree, entry by entry: the changes of float
  format are the identity, both products are the same sum over the inner axis, both programs wrap and clamp the same
  words for their gathers and drop the same words in their scatter-adds, and a filtered sum over the longer list
  is the filtered sum over the edges plus the one self-entry that lands on the row (`Cert.Gcn.count_tail`,
  `agg_tail`) — associativity and commutativity of the sum only, so the precondition's finiteness is not used.

  The three frames: the kernel's two programs run through the pipelined region and the seventy-three later host
  operations (`Around.frame`, at the word-level and at the ideal values alike); the reference is its run with the
  result dropped. The ideal pass rewrote nothing, so `preserves` is `True`.
-/
import proofs.«133080_j10007273799959_2_alg».proof.Defs
import proofs.«133080_j10007273799959_2_alg».proof.Proof.Gen.Kernel
import proofs.«133080_j10007273799959_2_alg».proof.Proof.Gen.KernelIdeal
import proofs.«133080_j10007273799959_2_alg».proof.Proof.Gen.ReferenceIdeal
import proofs.«133080_j10007273799959_2_alg».proof.Proof.Gen.Pre_finite_inputs
import proofs.«133080_j10007273799959_2_alg».proof.Proof.KernelAround
import proofs.«133080_j10007273799959_2_alg».proof.Proof.KernelIdealResult
import proofs.«133080_j10007273799959_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The host's product and the region's product array are one table: the sum over the inner axis. -/
theorem table_eq (x : FVec Ideal Cert.KernelIdeal.S100000x256 .f32) (w : FVec Ideal Cert.KernelIdeal.S256x128 .f32) :
    Host.dotGeneral (F := Ideal) Cert.ReferenceIdeal.dot_S100000x256_S256x128_S100000x128_1_0_0_1_n_n none x w
      = Cert.KernelIdeal.Product.H x w := by
  funext i
  obtain ⟨a, b, rfl⟩ : ∃ (a : Fin 100000) (b : Fin 128), i = ix2 a b := ⟨i 0, i 1, eq_ix2 i⟩
  exact Cert.ReferenceIdeal.Appended.dot_apply x w a b

theorem frame_k : Cert.frame_Kernel := fun m ρ _ => Cert.Kernel.Around.frame m ρ
theorem frame_ki : Cert.frame_KernelIdeal := fun m ρ _ => Cert.KernelIdeal.Around.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result at the dense form of the arguments: the kernel's by its run, the reference's
    appended form by the law of the appended self-entries. -/
theorem algebraic : Cert.algebraic_KernelIdeal_ReferenceIdeal := by
  intro m ρ m' ρ' _ hagree
  refine ⟨fun c => Cert.KernelIdeal.Result.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Appended.res_eq, (hagree c).1, (hagree c).2.1, (hagree c).2.2.1, (hagree c).2.2.2.1,
    (hagree c).2.2.2.2, table_eq]
  exact (Cert.Gcn.outDense_eq_outAppended (by norm_num : 1600000 + 100000 = 1700000) _ _ _ _
    Cert.KernelIdeal.Tail.witR Cert.KernelIdeal.Tail.wit Cert.ReferenceIdeal.Appended.wit _
    (Cert.ReferenceIdeal.Appended.withSelf_extends _) (Cert.ReferenceIdeal.Appended.withSelf_extends _) _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
